-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S40000x128 .f32) (main_arg1 : IVec S2x640000 32) (main_arg2 : FVec F S128x128 .f32) (main_arg3 : FVec F S128 .f32) (main_arg4 : FVec F S128x64 .f32) (main_arg5 : FVec F S64 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S40000x1 : Shape := ⟨2, ![40000, 1]⟩
abbrev S5000x128 : Shape := ⟨2, ![5000, 128]⟩
abbrev S5000x1 : Shape := ⟨2, ![5000, 1]⟩
abbrev S680000x128 : Shape := ⟨2, ![680000, 128]⟩
abbrev S1x128 : Shape := ⟨2, ![1, 128]⟩
abbrev S40000x64 : Shape := ⟨2, ![40000, 64]⟩
abbrev S5000x64 : Shape := ⟨2, ![5000, 64]⟩
abbrev S680000x64 : Shape := ⟨2, ![680000, 64]⟩
abbrev S1x64 : Shape := ⟨2, ![1, 64]⟩

abbrev nBuf : Space → Nat
  | .hbm => 62
  | .vmem => 15
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S40000, .i32⟩
  | .hbm, ⟨7, _⟩ => ⟨S1x640000, .i32⟩
  | .hbm, ⟨8, _⟩ => ⟨S640000, .i32⟩
  | .hbm, ⟨9, _⟩ => ⟨S680000, .i32⟩
  | .hbm, ⟨10, _⟩ => ⟨S1x640000, .i32⟩
  | .hbm, ⟨11, _⟩ => ⟨S640000, .i32⟩
  | .hbm, ⟨12, _⟩ => ⟨S680000, .i32⟩
  | .hbm, ⟨13, _⟩ => ⟨S_, .f32⟩
  | .hbm, ⟨14, _⟩ => ⟨S680000, .f32⟩
  | .hbm, ⟨15, _⟩ => ⟨S_, .f32⟩
  | .hbm, ⟨16, _⟩ => ⟨S40000, .f32⟩
  | .hbm, ⟨17, _⟩ => ⟨S680000x1, .i32⟩
  | .hbm, ⟨18, _⟩ => ⟨S40000, .f32⟩
  | .hbm, ⟨19, _⟩ => ⟨S_, .f32⟩
  | .hbm, ⟨20, _⟩ => ⟨S40000, .f32⟩
  | .hbm, ⟨21, _⟩ => ⟨S40000, .i1⟩
  | .hbm, ⟨22, _⟩ => ⟨S40000, .f32⟩
  | .hbm, ⟨23, _⟩ => ⟨S_, .f32⟩
  | .hbm, ⟨24, _⟩ => ⟨S_, .f32⟩
  | .hbm, ⟨25, _⟩ => ⟨S40000, .f32⟩
  | .hbm, ⟨26, _⟩ => ⟨S40000, .f32⟩
  | .hbm, ⟨27, _⟩ => ⟨S40000x1, .f32⟩
  | .hbm, ⟨28, _⟩ => ⟨S40000x128, .f32⟩
  | .hbm, ⟨29, _⟩ => ⟨S_, .i32⟩
  | .hbm, ⟨30, _⟩ => ⟨S680000, .i32⟩
  | .hbm, ⟨31, _⟩ => ⟨S680000, .i1⟩
  | .hbm, ⟨32, _⟩ => ⟨S_, .i32⟩
  | .hbm, ⟨33, _⟩ => ⟨S680000, .i32⟩
  | .hbm, ⟨34, _⟩ => ⟨S680000, .i32⟩
  | .hbm, ⟨35, _⟩ => ⟨S680000, .i32⟩
  | .hbm, ⟨36, _⟩ => ⟨S680000x1, .i32⟩
  | .hbm, ⟨37, _⟩ => ⟨S680000x128, .f32⟩
  | .hbm, ⟨38, _⟩ => ⟨S_, .f32⟩
  | .hbm, ⟨39, _⟩ => ⟨S40000x128, .f32⟩
  | .hbm, ⟨40, _⟩ => ⟨S680000x1, .i32⟩
  | .hbm, ⟨41, _⟩ => ⟨S40000x128, .f32⟩
  | .hbm, ⟨42, _⟩ => ⟨S1x128, .f32⟩
  | .hbm, ⟨43, _⟩ => ⟨S40000x64, .f32⟩
  | .hbm, ⟨44, _⟩ => ⟨S_, .i32⟩
  | .hbm, ⟨45, _⟩ => ⟨S680000, .i32⟩
  | .hbm, ⟨46, _⟩ => ⟨S680000, .i1⟩
  | .hbm, ⟨47, _⟩ => ⟨S_, .i32⟩
  | .hbm, ⟨48, _⟩ => ⟨S680000, .i32⟩
  | .hbm, ⟨49, _⟩ => ⟨S680000, .i32⟩
  | .hbm, ⟨50, _⟩ => ⟨S680000, .i32⟩
  | .hbm, ⟨51, _⟩ => ⟨S680000x1, .i32⟩
  | .hbm, ⟨52, _⟩ => ⟨S680000x64, .f32⟩
  | .hbm, ⟨53, _⟩ => ⟨S_, .f32⟩
  | .hbm, ⟨54, _⟩ => ⟨S40000x64, .f32⟩
  | .hbm, ⟨55, _⟩ => ⟨S680000x1, .i32⟩
  | .hbm, ⟨56, _⟩ => ⟨S40000x64, .f32⟩
  | .hbm, ⟨57, _⟩ => ⟨S40000x64, .f32⟩
  | .hbm, ⟨58, _⟩ => ⟨S40000x64, .f32⟩
  | .hbm, ⟨59, _⟩ => ⟨S1x64, .f32⟩
  | .hbm, ⟨60, _⟩ => ⟨S40000x64, .f32⟩
  | .hbm, ⟨61, _⟩ => ⟨S40000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S128x64, .f32⟩
  | .local _ .vmem, ⟨10, _⟩ => ⟨S5000x1, .f32⟩
  | .local _ .vmem, ⟨11, _⟩ => ⟨S5000x1, .f32⟩
  | .local _ .vmem, ⟨12, _⟩ => ⟨S1x128, .f32⟩
  | .local _ .vmem, ⟨13, _⟩ => ⟨S5000x64, .f32⟩
  | .local _ .vmem, ⟨14, _⟩ => ⟨S5000x64, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  shapeCasts_S40000_S40000x1 : S40000.ShapeCasts S40000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S40000x128 : S_.BroadcastsInDim S40000x128 (![] : Fin 0 → Fin S40000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S40000x64 : S_.BroadcastsInDim S40000x64 (![] : Fin 0 → Fin S40000x64.rank)
  bcast_S40000x1_S40000x64_0_1 : S40000x1.BroadcastsInDim S40000x64 (![0, 1] : Fin 2 → Fin S40000x64.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  scatter_S40000_S680000x1_S680000_n_0_0_1_wf : ScatterDims.WF S40000 S680000x1 S680000 [] [0] [0] 1
  dot_S5000x128_S128x128_S5000x128_1_0_0_1_n_n_wf : DotDims.WF S5000x128 S128x128 S5000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  dot_S5000x128_S128x64_S5000x64_1_0_0_1_n_n_wf : DotDims.WF S5000x128 S128x64 S5000x64 [1] [0] [0] [1] [] []
  gather_S40000x64_S680000x1_S680000x64_1_0_n_n_0_1_164_wf : GatherDims.WF S40000x64 S680000x1 S680000x64 [1] [0] [] [0] [] 1 ![1, 64]
  scatter_S40000x64_S680000x1_S680000x64_1_0_0_1_wf : ScatterDims.WF S40000x64 S680000x1 S680000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S40000x1.size a
  hwx0_2 : ∀ i : grid0.Coords, EltTy.bits .f32 = 32 ∨ (Rect.block (s := S40000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S40000x128.size a
  hwx0_3 : ∀ i : grid0.Coords, EltTy.bits .f32 = 32 ∨ (Rect.block (s := S40000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S40000x1.size a
  hwx1_2 : ∀ i : grid1.Coords, EltTy.bits .f32 = 32 ∨ (Rect.block (s := S40000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S40000x64.size a
  hwx1_4 : ∀ i : grid1.Coords, EltTy.bits .f32 = 32 ∨ (Rect.block (s := S40000x64) S5000x64.size (cc1_transform_4 i) (hinb1_4 i)).WholeWords (EltTy.packing .f32)

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S40000x64_S680000x1_S680000x64_1_0_n_n_0_1_164 : GatherDims S40000x64 S680000x1 S680000x64 where
  offsetDims := [1]
  collapsedSliceDims := [0]
  operandBatchingDims := []
  startIndicesBatchingDims := []
  startIndexMap := [0]
  indexVectorDim := 1
  sliceSizes := ![1, 64]
  wf := gather_S40000x64_S680000x1_S680000x64_1_0_n_n_0_1_164_wf
def scatter_S40000x64_S680000x1_S680000x64_1_0_0_1 : ScatterDims S40000x64 S680000x1 S680000x64 where
  updateWindowDims := [1]
  insertedWindowDims := [0]
  scatterDimsToOperandDims := [0]
  indexVectorDim := 1
  wf := scatter_S40000x64_S680000x1_S680000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S40000 : Shape := ⟨1, ![40000]⟩
abbrev S1x640000 : Shape := ⟨2, ![1, 640000]⟩
abbrev S640000 : Shape := ⟨1, ![640000]⟩
abbrev S680000 : Shape := ⟨1, ![680000]⟩
abbrev S_ : Shape := ⟨0, ![]⟩
abbrev S680000x1 : Shape := ⟨2, ![680000, 1]⟩
abbrev S680000x128 : Shape := ⟨2, ![680000, 128]⟩
abbrev S1x128 : Shape := ⟨2, ![1, 128]⟩
abbrev S40000x64 : Shape := ⟨2, ![40000, 64]⟩
abbrev S680000x64 : Shape := ⟨2, ![680000, 64]⟩
abbrev S1x64 : Shape := ⟨2, ![1, 64]⟩

abbrev nBuf : Space → Nat
  | .hbm => 129
  | .vmem => 0
  | .smem => 0
  | _ => 0

abbrev hbmTy0_0 (i : Nat) : BufTy := match i % 128 with
  | 0 => ⟨S40000x128, .f32⟩
  | 1 => ⟨S2x640000, .i32⟩
  | 2 => ⟨S128x128, .f32⟩
  | 3 => ⟨S128, .f32⟩
  | 4 => ⟨S128x64, .f32⟩
  | 5 => ⟨S64, .f32⟩
  | 6 => ⟨S40000, .i32⟩
  | 7 => ⟨S1x640000, .i32⟩
  | 8 => ⟨S640000, .i32⟩
  | 9 => ⟨S680000, .i32⟩
  | 10 => ⟨S1x640000, .i32⟩
  | 11 => ⟨S640000, .i32⟩
  | 12 => ⟨S680000, .i32⟩
  | 13 => ⟨S_, .f32⟩
  | 14 => ⟨S680000, .f32⟩
  | 15 => ⟨S_, .f32⟩
  | 16 => ⟨S40000, .f32⟩
  | 17 => ⟨S680000x1, .i32⟩
  | 18 => ⟨S40000, .f32⟩
  | 19 => ⟨S_, .f32⟩
  | 20 => ⟨S40000, .f32⟩
  | 21 => ⟨S40000, .i1⟩
  | 22 => ⟨S40000, .f32⟩
  | 23 => ⟨S_, .f32⟩
  | 24 => ⟨S_, .f32⟩
  | 25 => ⟨S40000, .f32⟩
  | 26 => ⟨S40000, .f32⟩
  | 27 => ⟨S_, .i32⟩
  | 28 => ⟨S680000, .i32⟩
  | 29 => ⟨S680000, .i1⟩
  | 30 => ⟨S_, .i32⟩
  | 31 => ⟨S680000, .i32⟩
  | 32 => ⟨S680000, .i32⟩
  | 33 => ⟨S680000, .i32⟩
  | 34 => ⟨S680000x1, .i32⟩
  | 35 => ⟨S680000, .f32⟩
  | 36 => ⟨S_, .i32⟩
  | 37 => ⟨S680000, .i32⟩
  | 38 => ⟨S680000, .i1⟩
  | 39 => ⟨S_, .i32⟩
  | 40 => ⟨S680000, .i32⟩
  | 41 => ⟨S680000, .i32⟩
  | 42 => ⟨S680000, .i32⟩
  | 43 => ⟨S680000x1, .i32⟩
  | 44 => ⟨S680000, .f32⟩
  | 45 => ⟨S680000, .f32⟩
  | 46 => ⟨S40000x128, .f32⟩
  | 47 => ⟨S_, .i32⟩
  | 48 => ⟨S680000, .i32⟩
  | 49 => ⟨S680000, .i1⟩
  | 50 => ⟨S_, .i32⟩
  | 51 => ⟨S680000, .i32⟩
  | 52 => ⟨S680000, .i32⟩
  | 53 => ⟨S680000, .i32⟩
  | 54 => ⟨S680000x1, .i32⟩
  | 55 => ⟨S680000x128, .f32⟩
  | 56 => ⟨S680000x1, .f32⟩
  | 57 => ⟨S680000x128, .f32⟩
  | 58 => ⟨S680000x128, .f32⟩
  | 59 => ⟨S_, .f32⟩
  | 60 => ⟨S40000x128, .f32⟩
  | 61 => ⟨S680000x1, .i32⟩
  | 62 => ⟨S40000x128, .f32⟩
  | 63 => ⟨S1x128, .f32⟩
  | 64 => ⟨S40000x128, .f32⟩
  | 65 => ⟨S40000x128, .f32⟩
  | 66 => ⟨S_, .f32⟩
  | 67 => ⟨S40000x128, .f32⟩
  | 68 => ⟨S40000x128, .f32⟩
  | 69 => ⟨S40000, .i32⟩
  | 70 => ⟨S1x640000, .i32⟩
  | 71 => ⟨S640000, .i32⟩
  | 72 => ⟨S680000, .i32⟩
  | 73 => ⟨S1x640000, .i32⟩
  | 74 => ⟨S640000, .i32⟩
  | 75 => ⟨S680000, .i32⟩
  | 76 => ⟨S_, .f32⟩
  | 77 => ⟨S680000, .f32⟩
  | 78 => ⟨S_, .f32⟩
  | 79 => ⟨S40000, .f32⟩
  | 80 => ⟨S680000x1, .i32⟩
  | 81 => ⟨S40000, .f32⟩
  | 82 => ⟨S_, .f32⟩
  | 83 => ⟨S40000, .f32⟩
  | 84 => ⟨S40000, .i1⟩
  | 85 => ⟨S40000, .f32⟩
  | 86 => ⟨S_, .f32⟩
  | 87 => ⟨S_, .f32⟩
  | 88 => ⟨S40000, .f32⟩
  | 89 => ⟨S40000, .f32⟩
  | 90 => ⟨S_, .i32⟩
  | 91 => ⟨S680000, .i32⟩
  | 92 => ⟨S680000, .i1⟩
  | 93 => ⟨S_, .i32⟩
  | 94 => ⟨S680000, .i32⟩
  | 95 => ⟨S680000, .i32⟩
  | 96 => ⟨S680000, .i32⟩
  | 97 => ⟨S680000x1, .i32⟩
  | 98 => ⟨S680000, .f32⟩
  | 99 => ⟨S_, .i32⟩
  | 100 => ⟨S680000, .i32⟩
  | 101 => ⟨S680000, .i1⟩
  | 102 => ⟨S_, .i32⟩
  | 103 => ⟨S680000, .i32⟩
  | 104 => ⟨S680000, .i32⟩
  | 105 => ⟨S680000, .i32⟩
  | 106 => ⟨S680000x1, .i32⟩
  | 107 => ⟨S680000, .f32⟩
  | 108 => ⟨S680000, .f32⟩
  | 109 => ⟨S40000x64, .f32⟩
  | 110 => ⟨S_, .i32⟩
  | 111 => ⟨S680000, .i32⟩
  | 112 => ⟨S680000, .i1⟩
  | 113 => ⟨S_, .i32⟩
  | 114 => ⟨S680000, .i32⟩
  | 115 => ⟨S680000, .i32⟩
  | 116 => ⟨S680000, .i32⟩
  | 117 => ⟨S680000x1, .i32⟩
  | 118 => ⟨S680000x64, .f32⟩
  | 119 => ⟨S680000x1, .f32⟩
  | 120 => ⟨S680000x64, .f32⟩
  | 121 => ⟨S680000x64, .f32⟩
  | 122 => ⟨S_, .f32⟩
  | 123 => ⟨S40000x64, .f32⟩
  | 124 => ⟨S680000x1, .i32⟩
  | 125 => ⟨S40000x64, .f32⟩
  | 126 => ⟨S1x64, .f32⟩
  | 127 => ⟨S40000x64, .f32⟩
  | _ => ⟨S40000x128, .f32⟩

abbrev hbmTy0_1 (i : Nat) : BufTy := match i % 128 with
  | 0 => ⟨S40000x64, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S40000_S680000_d0 : Shape.Concatenates [S640000, S40000] S680000 0
  slices_S2x640000_S1x640000_1_0 : S2x640000.Slices ![1, 0] S1x640000
  bcast_S_S680000 : S_.BroadcastsInDim S680000 (![] : Fin 0 → Fin S680000.rank)
  bcast_S_S40000 : S_.BroadcastsInDim S40000 (![] : Fin 0 → Fin S40000.rank)
  bcast_S680000_S680000x1_0 : S680000.BroadcastsInDim S680000x1 (![0] : Fin 1 → Fin S680000x1.rank)
  bcast_S680000x1_S680000x128_0_1 : S680000x1.BroadcastsInDim S680000x128 (![0, 1] : Fin 2 → Fin S680000x128.rank)
  bcast_S_S40000x128 : S_.BroadcastsInDim S40000x128 (![] : Fin 0 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S680000x1_S680000x64_0_1 : S680000x1.BroadcastsInDim S680000x64 (![0, 1] : Fin 2 → Fin S680000x64.rank)
  bcast_S_S40000x64 : S_.BroadcastsInDim S40000x64 (![] : Fin 0 → Fin S40000x64.rank)
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  scatter_S40000_S680000x1_S680000_n_0_0_1_wf : ScatterDims.WF S40000 S680000x1 S680000 [] [0] [0] 1
  gather_S40000_S680000x1_S680000_n_0_n_n_0_1_1_wf : GatherDims.WF S40000 S680000x1 S680000 [] [0] [] [0] [] 1 ![1]
  dot_S40000x128_S128x128_S40000x128_1_0_0_1_n_n_wf : DotDims.WF S40000x128 S128x128 S40000x128 [1] [0] [0] [1] [] []
  gather_S40000x128_S680000x1_S680000x128_1_0_n_n_0_1_1128_wf : GatherDims.WF S40000x128 S680000x1 S680000x128 [1] [0] [] [0] [] 1 ![1, 128]
  scatter_S40000x128_S680000x1_S680000x128_1_0_0_1_wf : ScatterDims.WF S40000x128 S680000x1 S680000x128 [1] [0] [0] 1
  dot_S40000x128_S128x64_S40000x64_1_0_0_1_n_n_wf : DotDims.WF S40000x128 S128x64 S40000x64 [1] [0] [0] [1] [] []
  gather_S40000x64_S680000x1_S680000x64_1_0_n_n_0_1_164_wf : GatherDims.WF S40000x64 S680000x1 S680000x64 [1] [0] [] [0] [] 1 ![1, 64]
  scatter_S40000x64_S680000x1_S680000x64_1_0_0_1_wf : ScatterDims.WF S40000x64 S680000x1 S680000x64 [1] [0] [0] 1

variable [Facts₀]

def scatter_S40000_S680000x1_S680000_n_0_0_1 : ScatterDims S40000 S680000x1 S680000 where
  updateWindowDims := []
  insertedWindowDims := [0]
  scatterDimsToOperandDims := [0]
  indexVectorDim := 1
  wf := scatter_S40000_S680000x1_S680000_n_0_0_1_wf
def gather_S40000_S680000x1_S680000_n_0_n_n_0_1_1 : GatherDims S40000 S680000x1 S680000 where
  offsetDims := []
  collapsedSliceDims := [0]
  operandBatchingDims := []
  startIndicesBatchingDims := []
  startIndexMap := [0]
  indexVectorDim := 1
  sliceSizes := ![1]
  wf := gather_S40000_S680000x1_S680000_n_0_n_n_0_1_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def gather_S40000x128_S680000x1_S680000x128_1_0_n_n_0_1_1128 : GatherDims S40000x128 S680000x1 S680000x128 where
  offsetDims := [1]
  collapsedSliceDims := [0]
  operandBatchingDims := []
  startIndicesBatchingDims := []
  startIndexMap := [0]
  indexVectorDim := 1
  sliceSizes := ![1, 128]
  wf := gather_S40000x128_S680000x1_S680000x128_1_0_n_n_0_1_1128_wf
def scatter_S40000x128_S680000x1_S680000x128_1_0_0_1 : ScatterDims S40000x128 S680000x1 S680000x128 where
  updateWindowDims := [1]
  insertedWindowDims := [0]
  scatterDimsToOperandDims := [0]
  indexVectorDim := 1
  wf := scatter_S40000x128_S680000x1_S680000x128_1_0_0_1_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf
def gather_S40000x64_S680000x1_S680000x64_1_0_n_n_0_1_164 : GatherDims S40000x64 S680000x1 S680000x64 where
  offsetDims := [1]
  collapsedSliceDims := [0]
  operandBatchingDims := []
  startIndicesBatchingDims := []
  startIndexMap := [0]
  indexVectorDim := 1
  sliceSizes := ![1, 64]
  wf := gather_S40000x64_S680000x1_S680000x64_1_0_n_n_0_1_164_wf
def scatter_S40000x64_S680000x1_S680000x64_1_0_0_1 : ScatterDims S40000x64 S680000x1 S680000x64 where
  updateWindowDims := [1]
  insertedWindowDims := [0]
  scatterDimsToOperandDims := [0]
  indexVectorDim := 1
  wf := scatter_S40000x64_S680000x1_S680000x64_1_0_0_1_wf

class Facts : Prop extends Facts₀ where

variable [Facts]
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.Arrays.lean ====
/-
  Two whole-array functions on the extended reals, index by index: a matrix product whose rows are scaled by a
  per-row weight kept as a column, `(Σ_k X[i,k] · W[k,j]) · D[i,0]`; and rows scaled by their weight, shifted by a
  bias row and cut below at the zero word's value, `max(A[i,k] · D[i,0] + B[0,k], 0)`. Each reads only row `i` of
  its row-indexed operands, which is what lets a computation done block of rows by block of rows be compared with the
  same computation done at once.
-/
import Idealize.ShloMosaic.Lib.ValueIdx
import Idealize.ShloMosaic.PureOps.Ideal.Laws
import proofs.«125249_j65481071395456_2_alg».proof.Proof.LibPlainDot

noncomputable section

namespace Cert.Gcn

open Idealize.ShloMosaic Idealize.ShloMosaic.ValueIdx Cert.Lib.PlainDot

/-- The product of `X` by `W` with row `i` scaled by the weight `D[i,0]`. -/
def scaledProduct {M K N : Nat} (X : (⟨2, ![M, K]⟩ : Shape).Idx → EReal) (W : (⟨2, ![K, N]⟩ : Shape).Idx → EReal)
    (D : (⟨2, ![M, 1]⟩ : Shape).Idx → EReal) : (⟨2, ![M, N]⟩ : Shape).Idx → EReal :=
  fun i => rowsByCols X W i * D (ix2 (n0 := M) (n1 := 1) (i 0) 0)

/-- Rows scaled by their weight, the bias row added, then the maximum with the zero word's value. -/
def reluRows {M K : Nat} (A : (⟨2, ![M, K]⟩ : Shape).Idx → EReal) (D : (⟨2, ![M, 1]⟩ : Shape).Idx → EReal)
    (B : (⟨2, ![1, K]⟩ : Shape).Idx → EReal) : (⟨2, ![M, K]⟩ : Shape).Idx → EReal :=
  fun i => max (A i * D (ix2 (n0 := M) (n1 := 1) (i 0) 0) + B (ix2 (n0 := 1) (n1 := K) 0 (i 1))) (Ideal.ofBits .f32 0x00000000#32)

theorem reluRows_apply {M K : Nat} (A : (⟨2, ![M, K]⟩ : Shape).Idx → EReal) (D : (⟨2, ![M, 1]⟩ : Shape).Idx → EReal)
    (B : (⟨2, ![1, K]⟩ : Shape).Idx → EReal) (r : Fin M) (k : Fin K) :
    reluRows A D B (ix2 r k) = max (A (ix2 r k) * D (ix2 r 0) + B (ix2 0 k)) (Ideal.ofBits .f32 0x00000000#32) := rfl

/-- Entry `(r', k)` of one such array is entry `(r, k)` of another when the three operands agree where the entries read them. -/
theorem reluRows_congr {M M' K : Nat} (A : (⟨2, ![M, K]⟩ : Shape).Idx → EReal) (D : (⟨2, ![M, 1]⟩ : Shape).Idx → EReal)
    (B : (⟨2, ![1, K]⟩ : Shape).Idx → EReal) (A' : (⟨2, ![M', K]⟩ : Shape).Idx → EReal)
    (D' : (⟨2, ![M', 1]⟩ : Shape).Idx → EReal) (B' : (⟨2, ![1, K]⟩ : Shape).Idx → EReal)
    (r : Fin M) (r' : Fin M') (k : Fin K) (hA : A' (ix2 r' k) = A (ix2 r k)) (hD : D' (ix2 r' 0) = D (ix2 r 0))
    (hB : B' (ix2 0 k) = B (ix2 0 k)) : reluRows A' D' B' (ix2 r' k) = reluRows A D B (ix2 r k) := by
  rw [reluRows_apply, reluRows_apply, hA, hD, hB]

end Cert.Gcn

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.KBlocks0.lean ====
/-
  The first kernel, whole. Each of its eight grid points takes 5000 rows of the left operand and the matching
  5000 entries of the per-row weight column, multiplies the rows by the (whole) 128 × 128 right operand and scales
  every product row by its weight. A product's row depends only on the same row of the left operand, so the
  eight row blocks written back are the eight row blocks of ONE array: entry `(i, j)` is
  `(Σ_k X[i,k] · W[k,j]) · D[i,0]`. The blocks tile the 40000 rows, so that array is what the output holds
  after the last point.
-/
import proofs.«125249_j65481071395456_2_alg».proof.Proof.Gen.KernelIdeal.Frame
import proofs.«125249_j65481071395456_2_alg».proof.Proof.LibPlainDot
import proofs.«125249_j65481071395456_2_alg».proof.Proof.Arrays
import proofs.«125249_j65481071395456_2_alg».proof.Proof.LibKeepdimsColumn
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.Lib.PlainDot Cert.Gcn

theorem hz : (![0, 0] : Fin 2 → Nat) = fun _ => 0 := funext fun a => by fin_cases a <;> rfl

/-- The body's stored value at an index: the product of the loaded row block by the right operand, times the row's
    weight. (Rounding the operands to bf16 is the identity on the extended reals.) -/
theorem pay0_apply (v0 : Vec Ideal S5000x128 .f32) (v2 : Vec Ideal S128x128 .f32) (v5 : Vec Ideal S5000x1 .f32)
    (j : S5000x128.Idx) : k0_pay1 v0 v2 v5 j = scaledProduct (M := 5000) (K := 128) (N := 128) v0 v2 v5 j := by
  obtain ⟨p, q, rfl⟩ : ∃ (p : Fin 5000) (q : Fin 128), j = ix2 p q := ⟨j 0, j 1, eq_ix2 j⟩
  unfold k0_pay1 scaledProduct
  show FloatOps.matmul dot_S5000x128_S128x128_S5000x128_1_0_0_1_n_n none v0 v2 (constant (F := Ideal) S5000x128 .f32 0x00000000#32) (ix2 p q)
      * broadcastTo S5000x128 (shapeCast S5000x1 v5 shapeCasts_S5000x1_S5000x1) broadcasts_S5000x1_S5000x128 (ix2 p q) = _
  rw [matmul_zero_eq dot_S5000x128_S128x128_S5000x128_1_0_0_1_n_n rfl none v0 v2,
    Cert.Gcn.Lib.broadcastTo_a1_ab_apply _ broadcasts_S5000x1_S5000x128 p q, shapeCast_self]

variable (V : (c : Dev nD) → (b : Ref sig .tc) → Buf (Elt Ideal) ((c : Thread nD τ).loc b))

/-- Where the windows sit at a point: the three row-blocked windows at row block `t`, the right operand whole. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The left operand's block at point `t` is rows `5000 t …` of the array. -/
theorem blk0_0 (c : Dev nD) (t : Fin cfg0.N) (y : S5000x128.Idx) (k : S40000x128.Idx)
    (hk0 : (k 0).val = t.val * 5000 + (y 0).val) (hk1 : (k 1).val = (y 1).val) :
    (iblk0 V c 0 t : Vec Ideal S5000x128 .f32) y = (V c main_arg0 : S40000x128.Idx → EReal) k := by
  obtain ⟨e0, e1, -⟩ := idx0 t
  unfold iblk0
  rw [View.read_apply]
  show (V c main_arg0 : S40000x128.Idx → EReal) _ = _
  congr 1
  funext a
  apply Fin.ext
  match a with
  | ⟨0, _⟩ => show win0_0.index t 0 * 5000 + 1 * (y 0).val = (k 0).val; rw [e0, hk0]; omega
  | ⟨1, _⟩ => show win0_0.index t 1 * 128 + 1 * (y 1).val = (k 1).val; rw [e1, hk1]; omega

/-- The right operand's block is the whole array at every point. -/
theorem blk0_1 (c : Dev nD) (t : Fin cfg0.N) (y : S128x128.Idx) :
    (iblk0 V c 1 t : Vec Ideal S128x128 .f32) y = (V c main_arg2 : S128x128.Idx → EReal) y := by
  obtain ⟨-, -, e0, e1, -⟩ := idx0 t
  unfold iblk0
  rw [View.read_apply]
  show (V c main_arg2 : S128x128.Idx → EReal) _ = _
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- The weight column's block at point `t` is entries `5000 t …` of the column. -/
theorem blk0_2 (c : Dev nD) (t : Fin cfg0.N) (y : S5000x1.Idx) (k : S40000x1.Idx)
    (hk0 : (k 0).val = t.val * 5000 + (y 0).val) :
    (iblk0 V c 2 t : Vec Ideal S5000x1 .f32) y = (V c main_v15 : S40000x1.Idx → EReal) k := by
  obtain ⟨-, -, -, -, e0, e1, -⟩ := idx0 t
  unfold iblk0
  rw [View.read_apply]
  show (V c main_v15 : S40000x1.Idx → EReal) _ = _
  congr 1
  funext a
  apply Fin.ext
  match a with
  | ⟨0, _⟩ => show win0_2.index t 0 * 5000 + 1 * (y 0).val = (k 0).val; rw [e0, hk0]; omega
  | ⟨1, _⟩ =>
    show win0_2.index t 1 * 1 + 1 * (y 1).val = (k 1).val
    have h1 : (y 1).val < 1 := (y 1).isLt
    have h2 : (k 1).val < 1 := (k 1).isLt
    rw [e1]; omega

/-- The array the region leaves: the scaled product of the arrays it found. -/
abbrev whole0 (c : Dev nD) : S40000x128.Idx → EReal :=
  scaledProduct (M := 40000) (K := 128) (N := 128) (V c main_arg0 : S40000x128.Idx → EReal)
    (V c main_arg2 : S128x128.Idx → EReal) (V c main_v15 : S40000x1.Idx → EReal)

/-- What point `t` writes back is block `t` of that array. -/
theorem flushed0 (c : Dev nD) (t : Fin cfg0.N) :
    (dat0 (F := Ideal) V c).flushed 3 t = ((cfg0.win 3).blk t).view.read (Elt Ideal) (whole0 V c) := by
  show (cfg0.win 3).cut (grid0.coords t) ((dat0 (F := Ideal) V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨-, -, -, -, -, -, e0, e1⟩ := idx0 t
  funext j
  show k0_pay1 (iblk0 V c 0 t) (iblk0 V c 1 t) (iblk0 V c 2 t) j = whole0 V c (((cfg0.win 3).blk t).view.emb j)
  have hi0 : ((((cfg0.win 3).blk t).view.emb j) 0).val = t.val * 5000 + (j 0).val := by
    show win0_3.index t 0 * 5000 + 1 * (j 0).val = _; rw [e0]; omega
  have hi1 : ((((cfg0.win 3).blk t).view.emb j) 1).val = (j 1).val := by
    show win0_3.index t 1 * 128 + 1 * (j 1).val = _; rw [e1]; omega
  refine (pay0_apply (iblk0 V c 0 t) (iblk0 V c 1 t) (iblk0 V c 2 t) j).trans ?_
  unfold scaledProduct
  refine congrArg₂ (· * ·) ?_ ?_
  · exact rowsByCols_congr (V c main_arg0 : S40000x128.Idx → EReal) (V c main_arg2 : S128x128.Idx → EReal)
      (iblk0 V c 0 t) (iblk0 V c 1 t) j (((cfg0.win 3).blk t).view.emb j)
      (fun k => blk0_0 V c t (ix2 (j 0) k) (ix2 ((((cfg0.win 3).blk t).view.emb j) 0) k) hi0 rfl)
      (fun k => (blk0_1 V c t (ix2 k (j 1))).trans (congrArg (V c main_arg2 : S128x128.Idx → EReal)
        (funext fun a => Fin.ext (by match a with | ⟨0, _⟩ => rfl | ⟨1, _⟩ => exact hi1.symm))))
  · exact blk0_2 V c t (ix2 (j 0) 0) (ix2 ((((cfg0.win 3).blk t).view.emb j) 0) 0) hi0

/-- The eight row blocks tile the array. -/
theorem cover0 (i : S40000x128.Idx) :
    ∃ t : Fin cfg0.N, (cfg0.win 3).flush t = true ∧ i ∈ ((cfg0.win 3).blk t).view.set := by
  have h0 : (i 0).val < 40000 := (i 0).isLt
  have h1 : (i 1).val < 128 := (i 1).isLt
  have hN : cfg0.N = 8 := N_0
  let t : Fin cfg0.N := ⟨(i 0).val / 5000, by rw [hN]; omega⟩
  obtain ⟨-, -, -, -, -, -, e0, e1⟩ := idx0 t
  refine ⟨t, flush0_3 t, ?_⟩
  show i ∈ ((View.whole main_v16).slice (win0_3.rect t)).set
  rw [View.set_slice_whole, Rect.mem_set_unit]
  intro a
  have ht : t.val = (i 0).val / 5000 := rfl
  match a with
  | ⟨0, _⟩ =>
    show win0_3.index t 0 * 5000 ≤ (i 0).val ∧ (i 0).val < win0_3.index t 0 * 5000 + 5000
    rw [e0]; omega
  | ⟨1, _⟩ =>
    show win0_3.index t 1 * 128 ≤ (i 1).val ∧ (i 1).val < win0_3.index t 1 * 128 + 128
    rw [e1]; omega

/-- After the last point the output array is the scaled product of the arrays the region found. -/
theorem final0 (c : Dev nD) : (dat0 (F := Ideal) V c).arrAt 3 cfg0.N = whole0 V c :=
  (dat0 (F := Ideal) V c).arrAt_eq_of_cover 3 (whole0 V c) (fun t _ => flushed0 V c t) (cover0)

end Cert.KernelIdeal.Whole

end
-- ==== Proof.KBlocks1.lean ====
/-
  The second kernel, whole. Each of its eight grid points takes 5000 rows of the aggregated table and the matching
  5000 entries of the per-row weight column, and forms `H = max(A · d + b, 0)` row by row (`d` the row's weight, `b` the
  bias row, the same at every point); it multiplies `H`'s rows by the (whole) 128 × 64 right operand and scales every
  product row by its weight again. Row `i` of the result depends only on row `i` of the aggregated table, so the
  eight row blocks written back are the row blocks of ONE array: entry `(i, j)` is
  `(Σ_k max(A[i,k] · D[i,0] + B[0,k], 0) · W[k,j]) · D[i,0]`, and the blocks tile the 40000 rows.
-/
import proofs.«125249_j65481071395456_2_alg».proof.Proof.KBlocks0

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.Lib.PlainDot Cert.Gcn

/-- The body's stored value at an index. -/
theorem pay1_apply (v0 : Vec Ideal S5000x128 .f32) (v2 : Vec Ideal S5000x1 .f32) (v6 : Vec Ideal S1x128 .f32)
    (v13 : Vec Ideal S128x64 .f32) (v16 : Vec Ideal S5000x1 .f32) (j : S5000x64.Idx) :
    k1_pay1 v0 v2 v6 v13 v16 j
      = scaledProduct (M := 5000) (K := 128) (N := 64) (reluRows (M := 5000) (K := 128) v0 v2 v6) v13 v16 j := by
  obtain ⟨p, q, rfl⟩ : ∃ (p : Fin 5000) (q : Fin 64), j = ix2 p q := ⟨j 0, j 1, eq_ix2 j⟩
  have hH : (truncf (F := Ideal) .bf16 (maximumf (F := Ideal) (addf (F := Ideal) (mulf (F := Ideal) v0
        (broadcastTo S5000x128 v2 broadcasts_S5000x1_S5000x128))
        (broadcastTo S5000x128 v6 broadcasts_S1x128_S5000x128))
        (broadcast S5000x128 (Scalar.ofBits (F := Ideal) .f32 0x00000000#32))) bitsLt_bf16_f32 : S5000x128.Idx → EReal)
      = reluRows (M := 5000) (K := 128) v0 v2 v6 := by
    funext i
    obtain ⟨r, k, rfl⟩ : ∃ (r : Fin 5000) (k : Fin 128), i = ix2 r k := ⟨i 0, i 1, eq_ix2 i⟩
    rw [reluRows_apply]
    show max (v0 (ix2 r k) * broadcastTo S5000x128 v2 broadcasts_S5000x1_S5000x128 (ix2 r k)
        + broadcastTo S5000x128 v6 broadcasts_S1x128_S5000x128 (ix2 r k)) (Ideal.ofBits .f32 0x00000000#32) = _
    rw [Cert.Gcn.Lib.broadcastTo_a1_ab_apply _ broadcasts_S5000x1_S5000x128 r k,
      broadcastTo_1b_ab_apply _ broadcasts_S1x128_S5000x128 r k]
  unfold k1_pay1 scaledProduct
  simp only [shapeCast_self]
  show FloatOps.matmul dot_S5000x128_S128x64_S5000x64_1_0_0_1_n_n none _ v13 (constant (F := Ideal) S5000x64 .f32 0x00000000#32) (ix2 p q)
      * broadcastTo S5000x64 v16 broadcasts_S5000x1_S5000x64 (ix2 p q) = _
  rw [matmul_zero_eq dot_S5000x128_S128x64_S5000x64_1_0_0_1_n_n rfl none _ v13,
    Cert.Gcn.Lib.broadcastTo_a1_ab_apply _ broadcasts_S5000x1_S5000x64 p q]
  exact congrArg (fun H => rowsByCols H v13 (ix2 p q) * v16 (ix2 p 0)) hH

variable (V : (c : Dev nD) → (b : Ref sig .tc) → Buf (Elt Ideal) ((c : Thread nD τ).loc b))

/-- Where the windows sit at a point: the three row-blocked windows at row block `t`, the other two whole. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregated table's block at point `t` is rows `5000 t …` of the array. -/
theorem blk1_0 (c : Dev nD) (t : Fin cfg1.N) (y : S5000x128.Idx) (k : S40000x128.Idx)
    (hk0 : (k 0).val = t.val * 5000 + (y 0).val) (hk1 : (k 1).val = (y 1).val) :
    (iblk1 V c 0 t : Vec Ideal S5000x128 .f32) y = (V c main_v26 : S40000x128.Idx → EReal) k := by
  obtain ⟨e0, e1, -⟩ := idx1 t
  unfold iblk1
  rw [View.read_apply]
  show (V c main_v26 : S40000x128.Idx → EReal) _ = _
  congr 1
  funext a
  apply Fin.ext
  match a with
  | ⟨0, _⟩ => show win1_0.index t 0 * 5000 + 1 * (y 0).val = (k 0).val; rw [e0, hk0]; omega
  | ⟨1, _⟩ => show win1_0.index t 1 * 128 + 1 * (y 1).val = (k 1).val; rw [e1, hk1]; omega

/-- The right operand's block is the whole array at every point. -/
theorem blk1_1 (c : Dev nD) (t : Fin cfg1.N) (y : S128x64.Idx) :
    (iblk1 V c 1 t : Vec Ideal S128x64 .f32) y = (V c main_arg4 : S128x64.Idx → EReal) y := by
  obtain ⟨-, -, e0, e1, -⟩ := idx1 t
  unfold iblk1
  rw [View.read_apply]
  show (V c main_arg4 : S128x64.Idx → EReal) _ = _
  congr 1
  funext a
  apply Fin.ext
  match a with
  | ⟨0, _⟩ => show win1_1.index t 0 * 128 + 1 * (y 0).val = (y 0).val; rw [e0]; omega
  | ⟨1, _⟩ => show win1_1.index t 1 * 64 + 1 * (y 1).val = (y 1).val; rw [e1]; omega

/-- The weight column's block at point `t` is entries `5000 t …` of the column. -/
theorem blk1_2 (c : Dev nD) (t : Fin cfg1.N) (y : S5000x1.Idx) (k : S40000x1.Idx)
    (hk0 : (k 0).val = t.val * 5000 + (y 0).val) :
    (iblk1 V c 2 t : Vec Ideal S5000x1 .f32) y = (V c main_v15 : S40000x1.Idx → EReal) k := by
  obtain ⟨-, -, -, -, e0, e1, -⟩ := idx1 t
  unfold iblk1
  rw [View.read_apply]
  show (V c main_v15 : S40000x1.Idx → EReal) _ = _
  congr 1
  funext a
  apply Fin.ext
  match a with
  | ⟨0, _⟩ => show win1_2.index t 0 * 5000 + 1 * (y 0).val = (k 0).val; rw [e0, hk0]; omega
  | ⟨1, _⟩ =>
    show win1_2.index t 1 * 1 + 1 * (y 1).val = (k 1).val
    have h1 : (y 1).val < 1 := (y 1).isLt
    have h2 : (k 1).val < 1 := (k 1).isLt
    rw [e1]; omega

/-- The bias row's block is the whole row at every point. -/
theorem blk1_3 (c : Dev nD) (t : Fin cfg1.N) (y : S1x128.Idx) :
    (iblk1 V c 3 t : Vec Ideal S1x128 .f32) y = (V c main_v27 : S1x128.Idx → EReal) y := by
  obtain ⟨-, -, -, -, -, -, e0, e1, -⟩ := idx1 t
  unfold iblk1
  rw [View.read_apply]
  show (V c main_v27 : S1x128.Idx → EReal) _ = _
  congr 1
  funext a
  apply Fin.ext
  match a with
  | ⟨0, _⟩ => show win1_3.index t 0 * 1 + 1 * (y 0).val = (y 0).val; rw [e0]; omega
  | ⟨1, _⟩ => show win1_3.index t 1 * 128 + 1 * (y 1).val = (y 1).val; rw [e1]; omega

/-- The array the region leaves. -/
abbrev whole1 (c : Dev nD) : S40000x64.Idx → EReal :=
  scaledProduct (M := 40000) (K := 128) (N := 64)
    (reluRows (M := 40000) (K := 128) (V c main_v26 : S40000x128.Idx → EReal) (V c main_v15 : S40000x1.Idx → EReal)
      (V c main_v27 : S1x128.Idx → EReal))
    (V c main_arg4 : S128x64.Idx → EReal) (V c main_v15 : S40000x1.Idx → EReal)

/-- What point `t` writes back is block `t` of that array. -/
theorem flushed1 (c : Dev nD) (t : Fin cfg1.N) :
    (dat1 (F := Ideal) V c).flushed 4 t = ((cfg1.win 4).blk t).view.read (Elt Ideal) (whole1 V c) := by
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S128x64) hz, View.ld_unit_zero (S := S5000x1) hz,
    View.ld_unit_zero (S := S1x128) hz]
  obtain ⟨-, -, -, -, -, -, -, -, e0, e1⟩ := idx1 t
  funext j
  show k1_pay1 (iblk1 V c 0 t) (iblk1 V c 2 t) (iblk1 V c 3 t) (iblk1 V c 1 t) (iblk1 V c 2 t) j
      = whole1 V c (((cfg1.win 4).blk t).view.emb j)
  have hi0 : ((((cfg1.win 4).blk t).view.emb j) 0).val = t.val * 5000 + (j 0).val := by
    show win1_4.index t 0 * 5000 + 1 * (j 0).val = _; rw [e0]; omega
  have hi1 : ((((cfg1.win 4).blk t).view.emb j) 1).val = (j 1).val := by
    show win1_4.index t 1 * 64 + 1 * (j 1).val = _; rw [e1]; omega
  refine (pay1_apply (iblk1 V c 0 t) (iblk1 V c 2 t) (iblk1 V c 3 t) (iblk1 V c 1 t) (iblk1 V c 2 t) j).trans ?_
  unfold scaledProduct
  refine congrArg₂ (· * ·) ?_ ?_
  · refine rowsByCols_congr _ (V c main_arg4 : S128x64.Idx → EReal) _ (iblk1 V c 1 t) j (((cfg1.win 4).blk t).view.emb j)
      (fun k => ?_)
      (fun k => (blk1_1 V c t (ix2 k (j 1))).trans (congrArg (V c main_arg4 : S128x64.Idx → EReal)
        (funext fun a => Fin.ext (by match a with | ⟨0, _⟩ => rfl | ⟨1, _⟩ => exact hi1.symm))))
    exact reluRows_congr (V c main_v26 : S40000x128.Idx → EReal) (V c main_v15 : S40000x1.Idx → EReal)
      (V c main_v27 : S1x128.Idx → EReal) (iblk1 V c 0 t) (iblk1 V c 2 t) (iblk1 V c 3 t)
      ((((cfg1.win 4).blk t).view.emb j) 0) (j 0) k
      (blk1_0 V c t (ix2 (j 0) k) (ix2 ((((cfg1.win 4).blk t).view.emb j) 0) k) hi0 rfl)
      (blk1_2 V c t (ix2 (j 0) 0) (ix2 ((((cfg1.win 4).blk t).view.emb j) 0) 0) hi0)
      (blk1_3 V c t (ix2 0 k))
  · exact blk1_2 V c t (ix2 (j 0) 0) (ix2 ((((cfg1.win 4).blk t).view.emb j) 0) 0) hi0

/-- The eight row blocks tile the array. -/
theorem cover1 (i : S40000x64.Idx) :
    ∃ t : Fin cfg1.N, (cfg1.win 4).flush t = true ∧ i ∈ ((cfg1.win 4).blk t).view.set := by
  have h0 : (i 0).val < 40000 := (i 0).isLt
  have h1 : (i 1).val < 64 := (i 1).isLt
  have hN : cfg1.N = 8 := N_1
  let t : Fin cfg1.N := ⟨(i 0).val / 5000, by rw [hN]; omega⟩
  obtain ⟨-, -, -, -, -, -, -, -, e0, e1⟩ := idx1 t
  refine ⟨t, flush1_4 t, ?_⟩
  show i ∈ ((View.whole main_v28).slice (win1_4.rect t)).set
  rw [View.set_slice_whole, Rect.mem_set_unit]
  intro a
  have ht : t.val = (i 0).val / 5000 := rfl
  match a with
  | ⟨0, _⟩ =>
    show win1_4.index t 0 * 5000 ≤ (i 0).val ∧ (i 0).val < win1_4.index t 0 * 5000 + 5000
    rw [e0]; omega
  | ⟨1, _⟩ =>
    show win1_4.index t 1 * 64 ≤ (i 1).val ∧ (i 1).val < win1_4.index t 1 * 64 + 64
    rw [e1]; omega

/-- After the last point the output array is that one array of the arrays the region found. -/
theorem final1 (c : Dev nD) : (dat1 (F := Ideal) V c).arrAt 4 cfg1.N = whole1 V c :=
  (dat1 (F := Ideal) V c).arrAt_eq_of_cover 4 (whole1 V c) (fun t _ => flushed1 V c t) (cover1)

end Cert.KernelIdeal.Whole

end
-- ==== Proof.LibRowGather.lean ====
/-
  Gathering rows of a table. For a table `x : [N, C]` and a column of start indices `idx : [R, 1]`, the
  gather with one collapsed row axis and one offset axis of full width `C` returns, at result entry
  `(r, k)`, the table's entry `(ρ, k)`, where the row `ρ` is the start index `idx[r, 0]` read as a signed
  integer and clamped into `[0, N − 1]`. The column coordinate passes through unchanged: the offset axis has
  start `0` and the slice is the whole row.
-/
import Idealize.ShloMosaic.Lib.ValueIdx

noncomputable section

namespace Cert.Lib.RowGather

open Idealize.ShloMosaic Idealize.ShloMosaic.ValueIdx

variable {α : Type}

/-- The dimension numbers of a row gather: result axis 1 is the offset axis, table axis 0 is collapsed and is
    the axis the start index addresses, the index vector lies along axis 1 of the start indices, and a slice is
    one row of `C` entries. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start-index word selects in a table of `N` rows: the word as a signed integer, negative values
    sent to `0`, clamped to the last row. -/
def rowOf (N : Nat) (hN : 0 < N) {w : Nat} (b : BitVec w) : Fin N := ⟨min b.toInt.toNat (N - 1), by omega⟩

/-- A row gather read at `(r, k)`: the table at the selected row and the same column. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (k : Fin C) :
    Host.gather (rowDims N R C wf) x idx (ix2 r k) = x (ix2 (rowOf N hN (idx (ix2 r 0))) k) := by
  -- the two coordinates of the table index the gather reads, one axis at a time
  have hb : ∀ a, (rowDims N R C wf).batchCoord (ix2 r k) a = 0 := fun a =>
    GatherDims.batchCoord_eq_zero _ _ _ List.not_mem_nil
  have h0 : (rowDims N R C wf).start (ix2 r k) idx (0 : Fin 2) + (rowDims N R C wf).batchCoord (ix2 r k) (0 : Fin 2)
      + (rowDims N R C wf).offCoord (ix2 r k) (0 : Fin 2) = (rowOf N hN (idx (ix2 r 0))).val := by
    rw [hb, GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r k) ⟨List.idxOf (0 : Fin 2) (rowDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  have h1 : (rowDims N R C wf).start (ix2 r k) idx (1 : Fin 2) + (rowDims N R C wf).batchCoord (ix2 r k) (1 : Fin 2)
      + (rowDims N R C wf).offCoord (ix2 r k) (1 : Fin 2) = k.val := by
    have ne10 : ¬((1 : Fin 2) = 0) := by decide
    have hn : (1 : Fin 2) ∉ (rowDims N R C wf).startIndexMap := fun h =>
      ne10 (List.mem_singleton.mp h)
    have hk : (1 : Fin 2) ∈ (rowDims N R C wf).sKept :=
      (GatherDims.mem_sKept _ _).mpr ⟨fun h => ne10 (List.mem_singleton.mp h), List.not_mem_nil⟩
    rw [hb]
    unfold GatherDims.start
    rw [dif_neg hn]
    unfold GatherDims.offCoord
    rw [dif_pos hk]
    simp only [Nat.zero_add, Nat.add_zero]
    rfl
  unfold Host.gather
  congr 1
  funext a
  refine Fin.ext ?_
  match a with
  | ⟨0, _⟩ => exact h0
  | ⟨1, _⟩ => exact h1

end Cert.Lib.RowGather

end
-- ==== Proof.LibColumnTake.lean ====
/-
  Taking entries of a vector at a column of start indices, read at an index.

  `x[idx]` for a flat array `x : [N]` and an index vector `idx : [R]` lowers to a gather whose start indices are the
  column `[R, 1]`: the one operand axis is collapsed, there is no offset axis, and a slice is one entry. The result at
  `r` is `x` at the start index `idx[r, 0]` read as a signed integer and clamped into `[0, N − 1]` — the same row
  selection as a gather of whole rows of an `[N, C]` table by the same column. With it, the cast of a column
  `[a, 1]` back to the vector `[a]` read at an index.
-/
import Idealize.ShloMosaic.Lib.Pipeline.Value
import Idealize.ShloMosaic.Lib.ValueIdx
import proofs.«125249_j65481071395456_2_alg».proof.Proof.LibRowGather

noncomputable section

namespace Cert.Lib.ColumnTake

open Idealize.ShloMosaic Idealize.ShloMosaic.ValueIdx Cert.Lib.RowGather

variable {α : Type}

/-- The dimension numbers of taking entries at a column of start indices: no offset axis, the operand's one axis
    collapsed and addressed by the start index, the index vector along axis 1 of the start indices, a slice one entry. -/
abbrev colDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at `r`: the operand at the entry the start index `idx[r, 0]` selects. -/
theorem gather_column_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (colDims N R wf) x idx (ix1 r) = x (ix1 (rowOf N hN (idx (ix2 r 0)))) := by
  unfold Host.gather
  congr 1
  funext a
  obtain rfl : a = 0 := Subsingleton.elim _ _
  refine Fin.ext ?_
  show (colDims N R wf).start (ix1 r) idx 0 + (colDims N R wf).batchCoord (ix1 r) 0 + (colDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colDims N R wf).startIndexMap from List.mem_singleton.mpr rfl)]
  have hsi : (colDims N R wf).siIdx (ix1 r) ⟨List.idxOf (0 : Fin 1) (colDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

/-- An `[a, 1]` column cast to the vector `[a]` reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.Lib.ColumnTake

end
-- ==== Proof.LibRowScatter.lean ====
/-
  Adding rows into a table at a column of start indices. For a table `x : [N, C]`, start indices `idx : [R, 1]` and
  updates `u : [R, C]`, the scatter with one inserted row axis and one window axis of width `C` sends update entry
  `(r, k)` to table entry `(ρ, k)`, where the row `ρ` is the start index `idx[r, 0]` read as a signed integer and NOT
  clamped: when that integer is outside `[0, N − 1]` the update is dropped. The column coordinate passes through.
  So if update `(r, k)` lands on table entry `(p, q)`, then `idx[r, 0]` is `p` and `k = q`.
-/
import Idealize.ShloMosaic.Lib.ValueIdx

noncomputable section

namespace Cert.Lib.RowScatter

open Idealize.ShloMosaic Idealize.ShloMosaic.ValueIdx

/-- The dimension numbers of a row scatter: update axis 1 is the window axis, table axis 0 is inserted and is the
    axis the start index addresses, the index vector lies along axis 1 of the start indices. -/
abbrev rowScat (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The window starts, on the row axis, at the start index of the update's row, read signed. -/
theorem start_row {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) :
    (rowScat N R C wf).start (ix2 r k) idx (0 : Fin 2) = (idx (ix2 r 0)).toInt := by
  unfold ScatterDims.start
  rw [dif_pos (show (0 : Fin 2) ∈ (rowScat N R C wf).scatterDimsToOperandDims from List.mem_singleton.mpr rfl)]
  have hsi : (rowScat N R C wf).siIdx (ix2 r k) ⟨List.idxOf (0 : Fin 2) (rowScat N R C wf).scatterDimsToOperandDims,
      List.idxOf_lt_length_iff.2 (List.mem_singleton.mpr rfl)⟩ = ix2 r 0 := by
    funext b; refine Fin.ext ?_
    match b with
    | ⟨0, _⟩ => rfl
    | ⟨1, _⟩ => rfl
  rw [hsi]

/-- On the column axis the window starts at `0`. -/
theorem start_col {N R C w : Nat} (wf : ScatterDims.WF ⟨2, ![N, C]⟩ ⟨2, ![R, 1]⟩ ⟨2, ![R, C]⟩ [1] [0] [0] 1)
    (idx : IVec ⟨2, ![R, 1]⟩ w) (j : (⟨2, ![R, C]⟩ : Shape).Idx) :
    (rowScat N R C wf).start j idx (1 : Fin 2) = 0 := by
  unfold ScatterDims.start
  rw [dif_neg (fun h => absurd (List.mem_singleton.mp h) (show ¬((1 : Fin 2) = 0) by decide))]

/-- The window coordinate is `0` on the (inserted) row axis … -/
theorem window_row {N R C : Nat} (wf : ScatterDims.WF ⟨2, ![N, C]⟩ ⟨2, ![R, 1]⟩ ⟨2, ![R, C]⟩ [1] [0] [0] 1)
    (j : (⟨2, ![R, C]⟩ : Shape).Idx) : (rowScat N R C wf).window j (0 : Fin 2) = 0 := by
  unfold ScatterDims.window
  rw [dif_neg (show ¬((0 : Fin 2) ∈ (rowScat N R C wf).sKept) from fun h => by have := (List.mem_filter.mp h).2; simp at this)]

/-- … and the update's column on the column axis. -/
theorem window_col {N R C : Nat} (wf : ScatterDims.WF ⟨2, ![N, C]⟩ ⟨2, ![R, 1]⟩ ⟨2, ![R, C]⟩ [1] [0] [0] 1)
    (r : Fin R) (k : Fin C) : (rowScat N R C wf).window (ix2 r k) (1 : Fin 2) = k.val := by
  unfold ScatterDims.window
  rw [dif_pos (show (1 : Fin 2) ∈ (rowScat N R C wf).sKept from List.mem_filter.mpr ⟨List.mem_finRange _, by simp⟩)]
  rfl

/-- If update entry `(r, k)` lands on table entry `(p, q)`, its row's start index is `p` and `k = q`. -/
theorem lands {N R C w : Nat} (wf : ScatterDims.WF ⟨2, ![N, C]⟩ ⟨2, ![R, 1]⟩ ⟨2, ![R, C]⟩ [1] [0] [0] 1)
    (idx : IVec ⟨2, ![R, 1]⟩ w) (r : Fin R) (k : Fin C) (p : Fin N) (q : Fin C)
    (h : (rowScat N R C wf).resultIdx? (ix2 r k) idx = some (ix2 p q)) :
    (idx (ix2 r 0)).toInt = (p.val : Int) ∧ k = q := by
  unfold ScatterDims.resultIdx? at h
  split at h
  · rename_i hb
    have h' := Option.some.inj h
    have e0 : ((rowScat N R C wf).start (ix2 r k) idx (0 : Fin 2) + ((rowScat N R C wf).window (ix2 r k) (0 : Fin 2) : Int)).toNat = p.val :=
      congrArg Fin.val (congrFun h' (0 : Fin 2))
    have e1 : ((rowScat N R C wf).start (ix2 r k) idx (1 : Fin 2) + ((rowScat N R C wf).window (ix2 r k) (1 : Fin 2) : Int)).toNat = q.val :=
      congrArg Fin.val (congrFun h' (1 : Fin 2))
    have b0 := (hb (0 : Fin 2)).1
    rw [start_row, window_row] at e0 b0
    rw [start_col, window_col] at e1
    refine ⟨by omega, Fin.ext (by omega)⟩
  · exact absurd h (by simp)

end Cert.Lib.RowScatter

end
-- ==== Proof.EdgeLayer.lean ====
/-
  One graph-convolution aggregation, two ways, on the extended reals.

  Nodes `0 … 39999`, edges `0 … 679999`; edge `r` has a source word `src r` and a target word `dst r` (32-bit,
  read signed). A table row is selected by a word after wrapping a negative word by `+40000` and clamping into
  `[0, 39999]`; an update is ADDED at the row its raw target word names, and dropped when that is no row.
  With `d : node → [0, ∞)` a weight per node and `T` a table with `C` columns,

      (Σ_{r → p} T[s r, q] · d[s r]) · d[p]   =   Σ_{r → p} T[s r, q] · (d[s r] · d[t r])

  where `r → p` ranges over the edges whose raw target word is `p`, `s r` is the selected source row and `t r`
  the selected target row. For an edge that lands on `p` the raw target word is `p` itself, nonnegative and in
  range, so wrapping and clamping leave it alone and `t r = p`; the factor `d[p]` is then common to all terms,
  and a finite nonnegative factor distributes over any sum of extended reals.
-/
import Idealize.ShloMosaic.Lib.Pipeline.Value
import Idealize.ShloMosaic.Lib.ValueIdx
import Idealize.ShloMosaic.PureOps.Ideal.Laws
import proofs.«125249_j65481071395456_2_alg».proof.Proof.LibRowGather
import proofs.«125249_j65481071395456_2_alg».proof.Proof.LibColumnTake
import proofs.«125249_j65481071395456_2_alg».proof.Proof.LibRowScatter

noncomputable section

namespace Cert.Gcn

open Idealize.ShloMosaic Idealize.ShloMosaic.ValueIdx
open Cert.Lib.RowGather Cert.Lib.ColumnTake Cert.Lib.RowScatter

/-! ## Shapes -/

abbrev S0 : Shape := ⟨0, ![]⟩
abbrev SNode : Shape := ⟨1, ![40000]⟩
abbrev SEdge : Shape := ⟨1, ![680000]⟩
abbrev SEdgeCol : Shape := ⟨2, ![680000, 1]⟩

theorem bz : S0.BroadcastsInDim SEdge (![] : Fin 0 → Fin SEdge.rank) := by decide
theorem bcol : SEdge.BroadcastsInDim SEdgeCol (![0] : Fin 1 → Fin SEdgeCol.rank) := by decide

/-! ## A per-edge vector as a column, and the wrap of negative words -/

section Words
variable {α : Type}

/-- A per-edge vector laid out as the `[680000, 1]` column a gather or a scatter takes as start indices. -/
def colOf (v : SEdge.Idx → α) : SEdgeCol.Idx → α := broadcastInDim SEdgeCol ![0] bcol v

theorem colOf_apply (v : SEdge.Idx → α) (r : Fin 680000) (u : Fin 1) : colOf v (ix2 r u) = v (ix1 r) := by
  unfold colOf
  exact broadcastInDim_apply ![0] bcol v (ix2 r u) (ix1 r) (fun a => by
    match a with
    | ⟨0, _⟩ => show r.val = if (680000 : Nat) = 1 then 0 else r.val; rw [if_neg (by decide)])

/-- The index words with the negative ones moved up by the number of nodes. -/
def wrap (v : IVec SEdge 32) : IVec SEdge 32 :=
  select (cmpi .slt v (broadcastInDim SEdge ![] bz (constantI S0 32 0#32)))
    (addi v (broadcastInDim SEdge ![] bz (constantI S0 32 40000#32))) v

theorem wrap_apply (v : IVec SEdge 32) (e : SEdge.Idx) :
    wrap v e = Scalar.select (IntOp.cmpi .slt (v e) 0#32) (IntOp.addi (v e) 40000#32) (v e) := rfl

/-- A word that names row `p` as it stands selects row `p` after wrapping and clamping. -/
theorem row_of_word (x : BitVec 32) (p : Fin 40000) (h : x.toInt = (p.val : Int)) :
    rowOf 40000 (by decide) (Scalar.select (IntOp.cmpi .slt x 0#32) (IntOp.addi x 40000#32) x) = p := by
  have hp := p.isLt
  have hs : IntOp.cmpi .slt x 0#32 = 0#1 := by
    unfold IntOp.cmpi
    have : x.slt 0#32 = false := by
      rw [BitVec.slt_eq_decide]
      simp only [BitVec.toInt_zero, decide_eq_false_iff_not]
      omega
    simp only [this]; rfl
  unfold Scalar.select
  rw [hs, if_neg (by decide)]
  unfold rowOf
  refine Fin.ext ?_
  show min x.toInt.toNat (40000 - 1) = p.val
  rw [h]
  omega

end Words

/-! ## A finite nonnegative factor over a sum -/

theorem sum_mul_of_nonneg_ne_top {ι : Type} (s : Finset ι) (f : ι → EReal) (c : EReal) (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-- The guarded inverse square root `x > 0 ? x^(-1/2) : 0` is finite and nonnegative at EVERY extended real. -/
theorem guarded_rsqrt (x : EReal) :
    0 ≤ Scalar.select (Ideal.cmp .ogt x 0) (Ideal.rsqrt x) 0 ∧ Scalar.select (Ideal.cmp .ogt x 0) (Ideal.rsqrt x) 0 ≠ ⊤ := by
  unfold Scalar.select Ideal.cmp
  by_cases hx : (0 : EReal) < x
  · have : BitVec.ofBool (decide ((0 : EReal) < x)) = 1 := by simp [hx]
    simp only [this, if_true]
    induction x using EReal.rec with
    | bot => exact absurd hx (by simp)
    | top => simp [Ideal.rsqrt_top]
    | coe r =>
      have hr : 0 < r := by exact_mod_cast hx
      rw [Ideal.rsqrt_coe, if_neg (by linarith), if_neg (by linarith)]
      exact ⟨by exact_mod_cast (inv_nonneg.mpr (Real.sqrt_nonneg r)), EReal.coe_ne_top _⟩
  · have : ¬ (BitVec.ofBool (decide ((0 : EReal) < x)) = 1) := by simp [hx]
    simp only [this, if_false]
    exact ⟨le_refl _, EReal.zero_ne_top⟩

/-! ## The two forms of the messages, and the aggregation -/

section Layer
variable {C : Nat}
  (wfS : ScatterDims.WF ⟨2, ![40000, C]⟩ ⟨2, ![680000, 1]⟩ ⟨2, ![680000, C]⟩ [1] [0] [0] 1)
  (wfR : GatherDims.WF ⟨2, ![40000, C]⟩ ⟨2, ![680000, 1]⟩ ⟨2, ![680000, C]⟩ [1] [0] [] [0] [] 1 ![1, C])
  (wfC : GatherDims.WF ⟨1, ![40000]⟩ ⟨2, ![680000, 1]⟩ ⟨1, ![680000]⟩ [] [0] [] [0] [] 1 ![1])
  (hb : (⟨2, ![680000, 1]⟩ : Shape).BroadcastsInDim ⟨2, ![680000, C]⟩ (![0, 1] : Fin 2 → Fin 2))

/-- A table with each row scaled by its node's weight. -/
def scaleRows (tbl : (⟨2, ![40000, C]⟩ : Shape).Idx → EReal) (dinv : SNode.Idx → EReal) :
    (⟨2, ![40000, C]⟩ : Shape).Idx → EReal := fun i => tbl i * dinv (ix1 (n := 40000) (i 0))

/-- The messages gathered from a table whose rows were scaled beforehand. -/
def msgScaled (tbl : (⟨2, ![40000, C]⟩ : Shape).Idx → EReal) (dinv : SNode.Idx → EReal) (src : IVec SEdge 32) :
    (⟨2, ![680000, C]⟩ : Shape).Idx → EReal :=
  Host.gather (rowDims 40000 680000 C wfR) (scaleRows tbl dinv) (colOf (wrap src))

/-- The messages gathered from the plain table and scaled, edge by edge, by the product of the two end weights. -/
def msgNormed (tbl : (⟨2, ![40000, C]⟩ : Shape).Idx → EReal) (dinv : SNode.Idx → EReal) (src dst : IVec SEdge 32) :
    (⟨2, ![680000, C]⟩ : Shape).Idx → EReal :=
  mulf (F := Ideal) (φ := .f32) (Host.gather (rowDims 40000 680000 C wfR) tbl (colOf (wrap src)))
    (broadcastInDim ⟨2, ![680000, C]⟩ ![0, 1] hb (colOf (mulf (F := Ideal) (φ := .f32)
      (Host.gather (colDims 40000 680000 wfC) dinv (colOf (wrap src)))
      (Host.gather (colDims 40000 680000 wfC) dinv (colOf (wrap dst))))))

theorem msgScaled_apply (tbl : (⟨2, ![40000, C]⟩ : Shape).Idx → EReal) (dinv : SNode.Idx → EReal) (src : IVec SEdge 32)
    (r : Fin 680000) (k : Fin C) :
    msgScaled wfR tbl dinv src (ix2 r k)
      = tbl (ix2 (rowOf 40000 (by decide) (wrap src (ix1 r))) k) * dinv (ix1 (rowOf 40000 (by decide) (wrap src (ix1 r)))) := by
  unfold msgScaled
  rw [gather_rows_apply (by decide) wfR, colOf_apply]
  rfl

theorem msgNormed_apply (tbl : (⟨2, ![40000, C]⟩ : Shape).Idx → EReal) (dinv : SNode.Idx → EReal) (src dst : IVec SEdge 32)
    (r : Fin 680000) (k : Fin C) :
    msgNormed wfR wfC hb tbl dinv src dst (ix2 r k)
      = tbl (ix2 (rowOf 40000 (by decide) (wrap src (ix1 r))) k)
        * (dinv (ix1 (rowOf 40000 (by decide) (wrap src (ix1 r)))) * dinv (ix1 (rowOf 40000 (by decide) (wrap dst (ix1 r))))) := by
  unfold msgNormed
  show Host.gather (rowDims 40000 680000 C wfR) tbl (colOf (wrap src)) (ix2 r k)
      * broadcastInDim ⟨2, ![680000, C]⟩ ![0, 1] hb (colOf (mulf (F := Ideal) (φ := .f32)
        (Host.gather (colDims 40000 680000 wfC) dinv (colOf (wrap src)))
        (Host.gather (colDims 40000 680000 wfC) dinv (colOf (wrap dst))))) (ix2 r k) = _
  rw [gather_rows_apply (by decide) wfR, colOf_apply,
    broadcastInDim_apply ![0, 1] hb _ (ix2 r k) (ix2 r (0 : Fin 1)) (fun a => by
      match a with
      | ⟨0, _⟩ => rfl
      | ⟨1, _⟩ => rfl),
    colOf_apply]
  show _ * (Host.gather (colDims 40000 680000 wfC) dinv (colOf (wrap src)) (ix1 r)
      * Host.gather (colDims 40000 680000 wfC) dinv (colOf (wrap dst)) (ix1 r)) = _
  rw [gather_column_apply (by decide) wfC, gather_column_apply (by decide) wfC, colOf_apply, colOf_apply]

/-- THE LAW. Aggregating pre-scaled rows and scaling the sum by the target's weight is aggregating the plain rows
    scaled edge by edge by both end weights. -/
theorem layer_eq (tbl : (⟨2, ![40000, C]⟩ : Shape).Idx → EReal) (dinv : SNode.Idx → EReal)
    (hd : ∀ p, 0 ≤ dinv p ∧ dinv p ≠ ⊤) (src dst : IVec SEdge 32)
    (zero : (⟨2, ![40000, C]⟩ : Shape).Idx → EReal) (p : Fin 40000) (q : Fin C) (hz : zero (ix2 p q) = 0) :
    Host.scatterAdd (F := Ideal) (φ := .f32) (rowScat 40000 680000 C wfS) zero (colOf dst) (msgScaled wfR tbl dinv src) (ix2 p q)
        * dinv (ix1 p)
      = Host.scatterAdd (F := Ideal) (φ := .f32) (rowScat 40000 680000 C wfS) zero (colOf dst)
          (msgNormed wfR wfC hb tbl dinv src dst) (ix2 p q) := by
  show (zero (ix2 p q) + ∑ j ∈ Finset.univ.filter (fun j => (rowScat 40000 680000 C wfS).resultIdx? j (colOf dst) = some (ix2 p q)),
        msgScaled wfR tbl dinv src j) * dinv (ix1 p)
      = zero (ix2 p q) + ∑ j ∈ Finset.univ.filter (fun j => (rowScat 40000 680000 C wfS).resultIdx? j (colOf dst) = some (ix2 p q)),
        msgNormed wfR wfC hb tbl dinv src dst j
  rw [hz, zero_add, zero_add, sum_mul_of_nonneg_ne_top _ _ _ (hd (ix1 p)).1 (hd (ix1 p)).2]
  refine Finset.sum_congr rfl fun j hj => ?_
  obtain ⟨r, k, rfl⟩ : ∃ (r : Fin 680000) (k : Fin C), j = ix2 r k := ⟨j 0, j 1, eq_ix2 j⟩
  have hl := lands wfS (colOf dst) r k p q (Finset.mem_filter.mp hj).2
  rw [colOf_apply] at hl
  rw [msgScaled_apply, msgNormed_apply, wrap_apply dst, row_of_word _ p hl.1, mul_assoc]

end Layer

end Cert.Gcn

end
-- ==== Proof.LibBcastChain.lean ====
/-
  A vector spread over a matrix by two `broadcast_in_dim`s, read at an index.

  jnp spreads a per-row vector `d : [n]` over an `[n, c]` array as `[n] → [n,1]` (dims = [0]) then `[n,1] → [n,c]`
  (dims = [0,1]), and a per-column vector `b : [c]` as `[c] → [1,c]` (dims = [1]) then `[1,c] → [n,c]` (dims = [0,1]).
  Read at `(p, q)` the first is `d[p]` and the second `b[q]`; a scalar spread over any shape (dims = []) reads the scalar
  everywhere. Stated over literal-extent index constructors, for any extents (a unit extent included).
-/
import Idealize.ShloMosaic.Lib.Pipeline.Value
import Idealize.ShloMosaic.Lib.ValueIdx

noncomputable section

namespace Cert.Lib.BcastChain

open Idealize.ShloMosaic Idealize.ShloMosaic.ValueIdx

variable {α : Type}

/-- A vector spread over the columns by `[n] → [n,1] → [n,c]` reads, at `(p, q)`, its entry `p`. -/
theorem overCols_apply {n c : ℕ} (d : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, c]⟩ ![0, 1]) (p : Fin n) (q : Fin c) :
    broadcastInDim ⟨2, ![n, c]⟩ ![0, 1] h2 (broadcastInDim ⟨2, ![n, 1]⟩ ![0] h1 d) (ix2 p q) = d (ix1 p) := by
  rw [broadcastInDim_apply ![0, 1] h2 _ (ix2 p q) (ix2 p (0 : Fin 1)) (fun a => by
    match a with
    | ⟨0, _⟩ =>
      show p.val = if n = 1 then 0 else p.val
      split
      · have := p.isLt; omega
      · rfl
    | ⟨1, _⟩ => show 0 = if (1 : ℕ) = 1 then 0 else q.val; rw [if_pos rfl])]
  exact broadcastInDim_apply ![0] h1 d (ix2 p (0 : Fin 1)) (ix1 p) (fun a => by
    match a with
    | ⟨0, _⟩ =>
      show p.val = if n = 1 then 0 else p.val
      split
      · have := p.isLt; omega
      · rfl)

/-- A vector spread over the rows by `[c] → [1,c] → [n,c]` reads, at `(p, q)`, its entry `q`. -/
theorem overRows_apply {n c : ℕ} (b : (⟨1, ![c]⟩ : Shape).Idx → α)
    (h3 : (⟨1, ![c]⟩ : Shape).BroadcastsInDim ⟨2, ![1, c]⟩ ![1])
    (h4 : (⟨2, ![1, c]⟩ : Shape).BroadcastsInDim ⟨2, ![n, c]⟩ ![0, 1]) (p : Fin n) (q : Fin c) :
    broadcastInDim ⟨2, ![n, c]⟩ ![0, 1] h4 (broadcastInDim ⟨2, ![1, c]⟩ ![1] h3 b) (ix2 p q) = b (ix1 q) := by
  rw [broadcastInDim_apply ![0, 1] h4 _ (ix2 p q) (ix2 (0 : Fin 1) q) (fun a => by
    match a with
    | ⟨0, _⟩ => show 0 = if (1 : ℕ) = 1 then 0 else p.val; rw [if_pos rfl]
    | ⟨1, _⟩ =>
      show q.val = if c = 1 then 0 else q.val
      split
      · have := q.isLt; omega
      · rfl)]
  exact broadcastInDim_apply ![1] h3 b (ix2 (0 : Fin 1) q) (ix1 q) (fun a => by
    match a with
    | ⟨0, _⟩ =>
      show q.val = if c = 1 then 0 else q.val
      split
      · have := q.isLt; omega
      · rfl)

/-- A scalar spread over any shape reads the scalar everywhere. -/
theorem overAll_apply {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 (fun a => a.elim0)

end Cert.Lib.BcastChain

end
-- ==== Proof.Bridge.lean ====
/-
  The two programs as two whole-array functions of the same inputs, and their equality.

  Inputs: the features `x0 : [40000,128]`, the weights `x2 : [128,128]`, `x4 : [128,64]`, the biases `x3 : [128]`,
  `x5 : [64]`, a per-node weight `dinv : [40000]` (finite and nonnegative), and the per-edge source and target words.
  One side scales table rows by the weight BEFORE they are gathered along the edges and scales the aggregated sum by
  the target's weight afterwards; the other gathers plain rows and scales each message by both end weights. Layer by
  layer they agree (EdgeLayer's law); between the layers both apply `max(· + bias, 0)`, and a matrix product of equal
  arrays is equal.
-/
import proofs.«125249_j65481071395456_2_alg».proof.Proof.EdgeLayer
import proofs.«125249_j65481071395456_2_alg».proof.Proof.Arrays
import proofs.«125249_j65481071395456_2_alg».proof.Proof.LibBcastChain
import proofs.«125249_j65481071395456_2_alg».proof.Proof.LibKeepdimsColumn
import Idealize.ShloMosaic.Lib.ValueLayout

noncomputable section

namespace Cert.Gcn

open Idealize.ShloMosaic Idealize.ShloMosaic.ValueIdx
open Cert.Lib.RowGather Cert.Lib.ColumnTake Cert.Lib.RowScatter Cert.Lib.PlainDot Cert.Lib.BcastChain

/-! ## Shapes and their side conditions -/

abbrev STab (C : Nat) : Shape := ⟨2, ![40000, C]⟩
abbrev SMsg (C : Nat) : Shape := ⟨2, ![680000, C]⟩
abbrev SNodeCol : Shape := ⟨2, ![40000, 1]⟩
abbrev SVec (C : Nat) : Shape := ⟨1, ![C]⟩
abbrev SRow (C : Nat) : Shape := ⟨2, ![1, C]⟩

theorem wfS128 : ScatterDims.WF (STab 128) SEdgeCol (SMsg 128) [1] [0] [0] 1 := by decide
theorem wfS64 : ScatterDims.WF (STab 64) SEdgeCol (SMsg 64) [1] [0] [0] 1 := by decide
theorem wfR128 : GatherDims.WF (STab 128) SEdgeCol (SMsg 128) [1] [0] [] [0] [] 1 ![1, 128] := by decide
theorem wfR64 : GatherDims.WF (STab 64) SEdgeCol (SMsg 64) [1] [0] [] [0] [] 1 ![1, 64] := by decide
theorem wfC : GatherDims.WF SNode SEdgeCol SEdge [] [0] [] [0] [] 1 ![1] := by decide
theorem hb128 : SEdgeCol.BroadcastsInDim (SMsg 128) (![0, 1] : Fin 2 → Fin 2) := by decide
theorem hb64 : SEdgeCol.BroadcastsInDim (SMsg 64) (![0, 1] : Fin 2 → Fin 2) := by decide
theorem bzT128 : S0.BroadcastsInDim (STab 128) (![] : Fin 0 → Fin 2) := by decide
theorem bzT64 : S0.BroadcastsInDim (STab 64) (![] : Fin 0 → Fin 2) := by decide
theorem bRowA128 : (SVec 128).BroadcastsInDim (SRow 128) (![1] : Fin 1 → Fin 2) := by decide
theorem bRowB128 : (SRow 128).BroadcastsInDim (STab 128) (![0, 1] : Fin 2 → Fin 2) := by decide
theorem bRowA64 : (SVec 64).BroadcastsInDim (SRow 64) (![1] : Fin 1 → Fin 2) := by decide
theorem bRowB64 : (SRow 64).BroadcastsInDim (STab 64) (![0, 1] : Fin 2 → Fin 2) := by decide
theorem bColT64 : SNodeCol.BroadcastsInDim (STab 64) (![0, 1] : Fin 2 → Fin 2) := by decide
theorem scNode : SNode.ShapeCasts SNodeCol := by decide
theorem scBias : (SVec 128).ShapeCasts (SRow 128) := by decide

/-! ## The pieces -/

/-- The table of zeros an aggregation starts from. -/
def zeroT (C : Nat) (h : S0.BroadcastsInDim (STab C) (![] : Fin 0 → Fin 2)) : (STab C).Idx → EReal :=
  broadcastInDim (STab C) ![] h (constant (F := Ideal) S0 .f32 0x00000000#32)

theorem zeroT_apply (C : Nat) (h : S0.BroadcastsInDim (STab C) (![] : Fin 0 → Fin 2)) (i : (STab C).Idx) :
    zeroT C h i = 0 := by
  show Ideal.ofBits .f32 0x00000000#32 = 0
  exact Ideal.ofBits_zero_f32

/-- A bias vector spread over the rows of a table. -/
def rowB {C : Nat} (h3 : (SVec C).BroadcastsInDim (SRow C) (![1] : Fin 1 → Fin 2))
    (h4 : (SRow C).BroadcastsInDim (STab C) (![0, 1] : Fin 2 → Fin 2)) (b : (SVec C).Idx → EReal) : (STab C).Idx → EReal :=
  broadcastInDim (STab C) ![0, 1] h4 (broadcastInDim (SRow C) ![1] h3 b)

/-- The per-node weight kept as a column. -/
def dcol (dinv : SNode.Idx → EReal) : SNodeCol.Idx → EReal := shapeCast SNodeCol dinv scNode

theorem dcol_apply (dinv : SNode.Idx → EReal) (p : Fin 40000) (u : Fin 1) : dcol dinv (ix2 p u) = dinv (ix1 p) := by
  unfold dcol
  exact Cert.Gcn.Lib.shapeCast_a_a1_apply dinv scNode p u

section Agg
variable {C : Nat}
  (wfS : ScatterDims.WF (STab C) SEdgeCol (SMsg C) [1] [0] [0] 1)
  (wfR : GatherDims.WF (STab C) SEdgeCol (SMsg C) [1] [0] [] [0] [] 1 ![1, C])
  (hb : SEdgeCol.BroadcastsInDim (SMsg C) (![0, 1] : Fin 2 → Fin 2))
  (hz : S0.BroadcastsInDim (STab C) (![] : Fin 0 → Fin 2))

/-- Aggregation of plain rows, each message scaled by both end weights. -/
def aggNormed (tbl : (STab C).Idx → EReal) (dinv : SNode.Idx → EReal) (src dst : IVec SEdge 32) : (STab C).Idx → EReal :=
  Host.scatterAdd (F := Ideal) (φ := .f32) (rowScat 40000 680000 C wfS) (zeroT C hz) (colOf dst)
    (msgNormed wfR wfC hb tbl dinv src dst)

/-- Aggregation of the rows of a table as it stands. -/
def aggPlain (tbl : (STab C).Idx → EReal) (src dst : IVec SEdge 32) : (STab C).Idx → EReal :=
  Host.scatterAdd (F := Ideal) (φ := .f32) (rowScat 40000 680000 C wfS) (zeroT C hz) (colOf dst)
    (Host.gather (rowDims 40000 680000 C wfR) tbl (colOf (wrap src)))

/-- One layer: aggregating the scaled product and scaling by the target's weight is aggregating the plain product with
    both end weights on every message. -/
theorem agg_eq {K : Nat} (X : (⟨2, ![40000, K]⟩ : Shape).Idx → EReal) (W : (⟨2, ![K, C]⟩ : Shape).Idx → EReal)
    (dinv : SNode.Idx → EReal) (hd : ∀ p, 0 ≤ dinv p ∧ dinv p ≠ ⊤) (src dst : IVec SEdge 32) (p : Fin 40000) (q : Fin C) :
    aggPlain wfS wfR hz (scaledProduct X W (dcol dinv)) src dst (ix2 p q) * dinv (ix1 p)
      = aggNormed wfS wfR hb hz (rowsByCols X W) dinv src dst (ix2 p q) := by
  have hs : scaledProduct X W (dcol dinv) = scaleRows (rowsByCols X W) dinv := by
    funext i
    obtain ⟨r, k, rfl⟩ : ∃ (r : Fin 40000) (k : Fin C), i = ix2 r k := ⟨i 0, i 1, eq_ix2 i⟩
    show rowsByCols X W (ix2 r k) * dcol dinv (ix2 r 0) = rowsByCols X W (ix2 r k) * dinv (ix1 r)
    rw [dcol_apply]
  unfold aggPlain aggNormed
  rw [hs]
  exact layer_eq wfS wfR wfC hb (rowsByCols X W) dinv hd src dst (zeroT C hz) p q (zeroT_apply C hz _)

end Agg

/-! ## The two sides -/

section Sides
variable (x0 : (STab 128).Idx → EReal) (x2 : (⟨2, ![128, 128]⟩ : Shape).Idx → EReal) (x3 : (SVec 128).Idx → EReal)
  (x4 : (⟨2, ![128, 64]⟩ : Shape).Idx → EReal) (x5 : (SVec 64).Idx → EReal)
  (dinv : SNode.Idx → EReal) (src dst : IVec SEdge 32)

/-- The hidden layer, scaling before the gather. -/
def hiddenPre : (STab 128).Idx → EReal :=
  reluRows (aggPlain wfS128 wfR128 bzT128 (scaledProduct x0 x2 (dcol dinv)) src dst) (dcol dinv)
    (shapeCast (SRow 128) x3 scBias)

/-- The output, scaling before the gather. -/
def outPre : (STab 64).Idx → EReal :=
  addf (F := Ideal) (φ := .f32)
    (mulf (F := Ideal) (φ := .f32) (broadcastInDim (STab 64) ![0, 1] bColT64 (dcol dinv))
      (aggPlain wfS64 wfR64 bzT64 (scaledProduct (hiddenPre x0 x2 x3 dinv src dst) x4 (dcol dinv)) src dst))
    (rowB bRowA64 bRowB64 x5)

/-- The hidden layer, scaling every message. -/
def hiddenMsg : (STab 128).Idx → EReal :=
  maximumf (F := Ideal) (φ := .f32)
    (addf (F := Ideal) (φ := .f32)
      (aggNormed wfS128 wfR128 hb128 bzT128 (Host.dotGeneral (F := Ideal) (φ₁ := .f32) (φ₂ := .f32) (DotDims.plain 40000 128 128) none x0 x2) dinv src dst)
      (rowB bRowA128 bRowB128 x3))
    (zeroT 128 bzT128)

/-- The output, scaling every message. -/
def outMsg : (STab 64).Idx → EReal :=
  addf (F := Ideal) (φ := .f32)
    (aggNormed wfS64 wfR64 hb64 bzT64
      (Host.dotGeneral (F := Ideal) (φ₁ := .f32) (φ₂ := .f32) (DotDims.plain 40000 128 64) none (hiddenMsg x0 x2 x3 dinv src dst) x4) dinv src dst)
    (rowB bRowA64 bRowB64 x5)

theorem hiddenPre_apply (p : Fin 40000) (k : Fin 128) :
    hiddenPre x0 x2 x3 dinv src dst (ix2 p k)
      = max (aggPlain wfS128 wfR128 bzT128 (scaledProduct x0 x2 (dcol dinv)) src dst (ix2 p k) * dinv (ix1 p) + x3 (ix1 k))
          (Ideal.ofBits .f32 0x00000000#32) := by
  unfold hiddenPre
  rw [reluRows_apply, dcol_apply, shapeCast_a_1a_apply x3 scBias 0 k]

theorem hiddenMsg_apply (p : Fin 40000) (k : Fin 128) :
    hiddenMsg x0 x2 x3 dinv src dst (ix2 p k)
      = max (aggNormed wfS128 wfR128 hb128 bzT128 (rowsByCols x0 x2) dinv src dst (ix2 p k) + x3 (ix1 k))
          (Ideal.ofBits .f32 0x00000000#32) := by
  unfold hiddenMsg rowB
  rw [maximumf_apply, addf_apply, overRows_apply x3 bRowA128 bRowB128 p k,
    show Host.dotGeneral (F := Ideal) (φ₁ := .f32) (φ₂ := .f32) (DotDims.plain 40000 128 128) none x0 x2 = rowsByCols x0 x2
      from dotGeneral_eq (DotDims.plain 40000 128 128) rfl none .single x0 x2]
  rfl

theorem hidden_eq (hd : ∀ p, 0 ≤ dinv p ∧ dinv p ≠ ⊤) : hiddenPre x0 x2 x3 dinv src dst = hiddenMsg x0 x2 x3 dinv src dst := by
  funext i
  obtain ⟨p, k, rfl⟩ : ∃ (p : Fin 40000) (k : Fin 128), i = ix2 p k := ⟨i 0, i 1, eq_ix2 i⟩
  rw [hiddenPre_apply, hiddenMsg_apply, agg_eq wfS128 wfR128 hb128 bzT128 x0 x2 dinv hd src dst p k]

theorem outPre_apply (p : Fin 40000) (q : Fin 64) :
    outPre x0 x2 x3 x4 x5 dinv src dst (ix2 p q)
      = dinv (ix1 p) * aggPlain wfS64 wfR64 bzT64 (scaledProduct (hiddenPre x0 x2 x3 dinv src dst) x4 (dcol dinv)) src dst (ix2 p q)
        + x5 (ix1 q) := by
  unfold outPre rowB
  rw [addf_apply, mulf_apply, overRows_apply x5 bRowA64 bRowB64 p q,
    broadcastInDim_apply ![0, 1] bColT64 (dcol dinv) (ix2 p q) (ix2 p (0 : Fin 1)) (fun a => by
      match a with
      | ⟨0, _⟩ => show p.val = if (40000 : Nat) = 1 then 0 else p.val; rw [if_neg (by decide)]
      | ⟨1, _⟩ => rfl),
    dcol_apply]

theorem outMsg_apply (p : Fin 40000) (q : Fin 64) :
    outMsg x0 x2 x3 x4 x5 dinv src dst (ix2 p q)
      = aggNormed wfS64 wfR64 hb64 bzT64 (rowsByCols (hiddenMsg x0 x2 x3 dinv src dst) x4) dinv src dst (ix2 p q)
        + x5 (ix1 q) := by
  unfold outMsg rowB
  rw [addf_apply, overRows_apply x5 bRowA64 bRowB64 p q,
    show Host.dotGeneral (F := Ideal) (φ₁ := .f32) (φ₂ := .f32) (DotDims.plain 40000 128 64) none (hiddenMsg x0 x2 x3 dinv src dst) x4
        = rowsByCols (hiddenMsg x0 x2 x3 dinv src dst) x4
      from dotGeneral_eq (DotDims.plain 40000 128 64) rfl none .single (hiddenMsg x0 x2 x3 dinv src dst) x4]

theorem out_eq (hd : ∀ p, 0 ≤ dinv p ∧ dinv p ≠ ⊤) : outPre x0 x2 x3 x4 x5 dinv src dst = outMsg x0 x2 x3 x4 x5 dinv src dst := by
  funext i
  obtain ⟨p, q, rfl⟩ : ∃ (p : Fin 40000) (q : Fin 64), i = ix2 p q := ⟨i 0, i 1, eq_ix2 i⟩
  rw [outPre_apply, outMsg_apply, mul_comm,
    agg_eq wfS64 wfR64 hb64 bzT64 (hiddenPre x0 x2 x3 dinv src dst) x4 dinv hd src dst p q,
    hidden_eq x0 x2 x3 dinv src dst hd]

end Sides

end Cert.Gcn

end
-- ==== Proof.KStages.lean ====
/-
  The kernel program's host operations, stretch by stretch, read over ANY contents `U` of the buffers at the stretch's
  entry: what each stretch leaves in the buffers the later stages read. The stretch after the second kernel forms
  `D · agg + bias` from an aggregation of the second kernel's output; the stretch between the kernels forms the
  aggregation of the first kernel's output and recasts the first bias as a row; the one-operation stretch before the
  first kernel recasts the per-node weight as a column. Every other buffer passes through a stretch unchanged.
-/
import proofs.«125249_j65481071395456_2_alg».proof.Proof.Gen.KernelIdeal.Launch
import proofs.«125249_j65481071395456_2_alg».proof.Proof.Bridge
import Idealize.ShloMosaic.Lib.StableHlo.Run

noncomputable section

open Idealize.ShloMosaic Idealize.ShloMosaic.TcCoe Idealize.SL.Sem Idealize.ShloMosaic.ValueIdx
open Idealize.ShloMosaic.StableHlo

namespace Cert.KernelIdeal.Whole

open Cert.KernelIdeal Cert.KernelIdeal.Gen Cert.Gcn

variable (U : Valuation τ sig (Elt Ideal))

set_option maxHeartbeats 4000000 in
/-- After the last stretch the result buffer holds `D · agg + bias`, `agg` the aggregation of the second kernel's output. -/
theorem tail_out : StableHlo.after (hostOps2 (F := Ideal)) U (Proc.devRef .tc main_v43)
    = addf (F := Ideal) (φ := .f32)
        (mulf (F := Ideal) (φ := .f32) (broadcastInDim (STab 64) ![0, 1] bColT64 (U (Proc.devRef .tc main_v15) : SNodeCol.Idx → EReal))
          (aggPlain wfS64 wfR64 bzT64 (U (Proc.devRef .tc main_v28) : (STab 64).Idx → EReal)
            (U (Proc.devRef .tc main_v3) : IVec SEdge 32) (U (Proc.devRef .tc main_v6) : IVec SEdge 32)))
        (rowB bRowA64 bRowB64 (U (Proc.devRef .tc main_arg5) : (SVec 64).Idx → EReal)) := by
  after_results_simp
  rfl

set_option maxHeartbeats 4000000 in
/-- Between the kernels: the aggregation of the first kernel's output … -/
theorem mid_agg : StableHlo.after (hostOps1 (F := Ideal)) U (Proc.devRef .tc main_v26)
    = aggPlain wfS128 wfR128 bzT128 (U (Proc.devRef .tc main_v16) : (STab 128).Idx → EReal)
        (U (Proc.devRef .tc main_v3) : IVec SEdge 32) (U (Proc.devRef .tc main_v6) : IVec SEdge 32) := by
  after_results_simp
  rfl

set_option maxHeartbeats 4000000 in
/-- … and the first bias as a row. -/
theorem mid_bias : StableHlo.after (hostOps1 (F := Ideal)) U (Proc.devRef .tc main_v27)
    = shapeCast (SRow 128) (U (Proc.devRef .tc main_arg3) : (SVec 128).Idx → EReal) scBias := by
  after_results_simp
  rfl

set_option maxHeartbeats 4000000 in
/-- What passes through the stretch between the kernels. -/
theorem mid_pass : StableHlo.after (hostOps1 (F := Ideal)) U (Proc.devRef .tc main_v15) = U (Proc.devRef .tc main_v15)
    ∧ StableHlo.after (hostOps1 (F := Ideal)) U (Proc.devRef .tc main_v3) = U (Proc.devRef .tc main_v3)
    ∧ StableHlo.after (hostOps1 (F := Ideal)) U (Proc.devRef .tc main_v6) = U (Proc.devRef .tc main_v6)
    ∧ StableHlo.after (hostOps1 (F := Ideal)) U (Proc.devRef .tc main_arg4) = U (Proc.devRef .tc main_arg4)
    ∧ StableHlo.after (hostOps1 (F := Ideal)) U (Proc.devRef .tc main_arg5) = U (Proc.devRef .tc main_arg5) := by
  refine ⟨?_, ?_, ?_, ?_, ?_⟩ <;> after_results_simp

/-- Before the first kernel: the per-node weight as a column. -/
theorem pre_col : StableHlo.after (hostOps0_2 (F := Ideal)) U (Proc.devRef .tc main_v15)
    = dcol (U (Proc.devRef .tc main_v14) : SNode.Idx → EReal) := by
  after_results_simp
  rfl

/-- What passes through that one-operation stretch. -/
theorem pre_pass : StableHlo.after (hostOps0_2 (F := Ideal)) U (Proc.devRef .tc main_arg0) = U (Proc.devRef .tc main_arg0)
    ∧ StableHlo.after (hostOps0_2 (F := Ideal)) U (Proc.devRef .tc main_arg2) = U (Proc.devRef .tc main_arg2)
    ∧ StableHlo.after (hostOps0_2 (F := Ideal)) U (Proc.devRef .tc main_arg3) = U (Proc.devRef .tc main_arg3)
    ∧ StableHlo.after (hostOps0_2 (F := Ideal)) U (Proc.devRef .tc main_arg4) = U (Proc.devRef .tc main_arg4)
    ∧ StableHlo.after (hostOps0_2 (F := Ideal)) U (Proc.devRef .tc main_arg5) = U (Proc.devRef .tc main_arg5)
    ∧ StableHlo.after (hostOps0_2 (F := Ideal)) U (Proc.devRef .tc main_v3) = U (Proc.devRef .tc main_v3)
    ∧ StableHlo.after (hostOps0_2 (F := Ideal)) U (Proc.devRef .tc main_v6) = U (Proc.devRef .tc main_v6) := by
  refine ⟨?_, ?_, ?_, ?_, ?_, ?_, ?_⟩ <;> after_results_simp

/-- What passes through the weight's guard (the three operations of the outlined `where`). -/
theorem guard_pass : StableHlo.after (hostOps0_1 (F := Ideal)) U (Proc.devRef .tc main_arg0) = U (Proc.devRef .tc main_arg0)
    ∧ StableHlo.after (hostOps0_1 (F := Ideal)) U (Proc.devRef .tc main_arg2) = U (Proc.devRef .tc main_arg2)
    ∧ StableHlo.after (hostOps0_1 (F := Ideal)) U (Proc.devRef .tc main_arg3) = U (Proc.devRef .tc main_arg3)
    ∧ StableHlo.after (hostOps0_1 (F := Ideal)) U (Proc.devRef .tc main_arg4) = U (Proc.devRef .tc main_arg4)
    ∧ StableHlo.after (hostOps0_1 (F := Ideal)) U (Proc.devRef .tc main_arg5) = U (Proc.devRef .tc main_arg5)
    ∧ StableHlo.after (hostOps0_1 (F := Ideal)) U (Proc.devRef .tc main_v3) = U (Proc.devRef .tc main_v3)
    ∧ StableHlo.after (hostOps0_1 (F := Ideal)) U (Proc.devRef .tc main_v6) = U (Proc.devRef .tc main_v6) := by
  refine ⟨?_, ?_, ?_, ?_, ?_, ?_, ?_⟩ <;> after_results_simp

set_option maxHeartbeats 4000000 in
/-- The first stretch leaves the float arguments alone. -/
theorem head_pass : StableHlo.after (hostOps0 (F := Ideal)) U (Proc.devRef .tc main_arg0) = U (Proc.devRef .tc main_arg0)
    ∧ StableHlo.after (hostOps0 (F := Ideal)) U (Proc.devRef .tc main_arg2) = U (Proc.devRef .tc main_arg2)
    ∧ StableHlo.after (hostOps0 (F := Ideal)) U (Proc.devRef .tc main_arg3) = U (Proc.devRef .tc main_arg3)
    ∧ StableHlo.after (hostOps0 (F := Ideal)) U (Proc.devRef .tc main_arg4) = U (Proc.devRef .tc main_arg4)
    ∧ StableHlo.after (hostOps0 (F := Ideal)) U (Proc.devRef .tc main_arg5) = U (Proc.devRef .tc main_arg5) := by
  refine ⟨?_, ?_, ?_, ?_, ?_⟩ <;> after_results_simp

end Cert.KernelIdeal.Whole

end
-- ==== Proof.KRun.lean ====
/-
  The kernel program's run with its result named, and that result as one function of the launch contents.

  The run is the generated frame's launch over the program's seven segments (three host stretches, the first kernel,
  a host stretch, the second kernel, a host stretch), re-posted so that the final state also gives the result buffer:
  it holds what the last segment boundary's contents hold there. Read back through the boundaries, that is
  `outPre` (Bridge) of the five float arguments, of the per-node weight as the guard leaves it (`dinvK`) and of the
  source and target words as the first stretch leaves them (`srcK`, `dstK`): the first kernel's output is the scaled
  product of features and first weights, the stretch between the kernels aggregates it, the second kernel's output is the
  scaled product of the hidden layer and the second weights, and the last stretch aggregates that, scales and adds the bias.
-/
import proofs.«125249_j65481071395456_2_alg».proof.Proof.Gen.KernelIdeal.Frame
import proofs.«125249_j65481071395456_2_alg».proof.Proof.KBlocks1
import proofs.«125249_j65481071395456_2_alg».proof.Proof.KStages

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.Gcn

variable {F : FTy → Type} [FloatOps F]

local notation "𝕄" => MT nD τ sig Unit (Elt F) ℕ (UR sig nD τ) ℕ

section Run
variable (m : (ℓ : Loc nD τ sig) → Buf (Elt F) ℓ) (ρ : Dev nD → PrngReg)

set_option backward.isDefEq.respectTransparency.types false in
/-- Every weakly fair execution terminates, nothing faulting; the result buffer ends at the last boundary's contents and
    the arguments end as launched. -/
theorem run_named : θ_run defs (onTc (τ := τ) (main (F := F))) ⟨m, fun _ => 0, ρ⟩ (fun r => ∀ c : Dev nD,
      r.2.mem ((c.tc : Thread nD τ).loc main_v43) = W7 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v43 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Run

/-! ## The result read back through the segment boundaries -/

section Read
variable (m : (ℓ : Loc nD τ sig) → Buf (Elt Ideal) ℓ) (ρ : Dev nD → PrngReg) (c : Dev nD)

/-- The source words, the target words and the per-node weight as the first stretches leave them. -/
abbrev srcK : IVec SEdge 32 := W1 m ρ c (Proc.devRef .tc main_v3)
abbrev dstK : IVec SEdge 32 := W1 m ρ c (Proc.devRef .tc main_v6)
abbrev dinvK : SNode.Idx → EReal := W2 m ρ c (Proc.devRef .tc main_v14)

/-! The float arguments reach every boundary as launched; the words reach the later boundaries as the first stretch left
    them; the weight column as the one-operation stretch left it. -/

theorem arg0_at3 : W3 m ρ c (Proc.devRef .tc main_arg0) = m ((c.tc : Thread nD τ).loc main_arg0) :=
  ((pre_pass (W2 m ρ c)).1).trans (((guard_pass (W1 m ρ c)).1).trans ((head_pass (W0 m ρ c)).1))
theorem arg2_at3 : W3 m ρ c (Proc.devRef .tc main_arg2) = m ((c.tc : Thread nD τ).loc main_arg2) :=
  ((pre_pass (W2 m ρ c)).2.1).trans (((guard_pass (W1 m ρ c)).2.1).trans ((head_pass (W0 m ρ c)).2.1))
theorem arg3_at3 : W3 m ρ c (Proc.devRef .tc main_arg3) = m ((c.tc : Thread nD τ).loc main_arg3) :=
  ((pre_pass (W2 m ρ c)).2.2.1).trans (((guard_pass (W1 m ρ c)).2.2.1).trans ((head_pass (W0 m ρ c)).2.2.1))
theorem arg4_at3 : W3 m ρ c (Proc.devRef .tc main_arg4) = m ((c.tc : Thread nD τ).loc main_arg4) :=
  ((pre_pass (W2 m ρ c)).2.2.2.1).trans (((guard_pass (W1 m ρ c)).2.2.2.1).trans ((head_pass (W0 m ρ c)).2.2.2.1))
theorem arg5_at3 : W3 m ρ c (Proc.devRef .tc main_arg5) = m ((c.tc : Thread nD τ).loc main_arg5) :=
  ((pre_pass (W2 m ρ c)).2.2.2.2.1).trans (((guard_pass (W1 m ρ c)).2.2.2.2.1).trans ((head_pass (W0 m ρ c)).2.2.2.2))
theorem v3_at3 : W3 m ρ c (Proc.devRef .tc main_v3) = srcK m ρ c :=
  ((pre_pass (W2 m ρ c)).2.2.2.2.2.1).trans ((guard_pass (W1 m ρ c)).2.2.2.2.2.1)
theorem v6_at3 : W3 m ρ c (Proc.devRef .tc main_v6) = dstK m ρ c :=
  ((pre_pass (W2 m ρ c)).2.2.2.2.2.2).trans ((guard_pass (W1 m ρ c)).2.2.2.2.2.2)
theorem v15_at3 : W3 m ρ c (Proc.devRef .tc main_v15) = dcol (dinvK m ρ c) := pre_col (W2 m ρ c)

theorem arg3_at4 : W4 m ρ c (Proc.devRef .tc main_arg3) = m ((c.tc : Thread nD τ).loc main_arg3) :=
  (W4_of_ne m ρ c main_arg3 (by decide)).trans (arg3_at3 m ρ c)
theorem arg4_at4 : W4 m ρ c (Proc.devRef .tc main_arg4) = m ((c.tc : Thread nD τ).loc main_arg4) :=
  (W4_of_ne m ρ c main_arg4 (by decide)).trans (arg4_at3 m ρ c)
theorem arg5_at4 : W4 m ρ c (Proc.devRef .tc main_arg5) = m ((c.tc : Thread nD τ).loc main_arg5) :=
  (W4_of_ne m ρ c main_arg5 (by decide)).trans (arg5_at3 m ρ c)
theorem v3_at4 : W4 m ρ c (Proc.devRef .tc main_v3) = srcK m ρ c :=
  (W4_of_ne m ρ c main_v3 (by decide)).trans (v3_at3 m ρ c)
theorem v6_at4 : W4 m ρ c (Proc.devRef .tc main_v6) = dstK m ρ c :=
  (W4_of_ne m ρ c main_v6 (by decide)).trans (v6_at3 m ρ c)
/-- The weight column is an input of the first kernel: its array leaves the region as it entered. -/
theorem v15_at4 : W4 m ρ c (Proc.devRef .tc main_v15) = dcol (dinvK m ρ c) :=
  ((W4_arr m ρ c 2).trans (((dat0 (V3 m ρ) c).arrAt_in 2 rfl _).trans (A_eq0 (V3 m ρ) c 2))).trans (v15_at3 m ρ c)

/-- The first kernel's output: the scaled product of the features and the first weights. -/
theorem v16_at4 : W4 m ρ c (Proc.devRef .tc main_v16)
    = scaledProduct (m ((c.tc : Thread nD τ).loc main_arg0) : (STab 128).Idx → EReal)
        (m ((c.tc : Thread nD τ).loc main_arg2) : (⟨2, ![128, 128]⟩ : Shape).Idx → EReal) (dcol (dinvK m ρ c)) := by
  refine ((W4_arr m ρ c 3).trans (final0 (V3 m ρ) c)).trans ?_
  show scaledProduct (W3 m ρ c (Proc.devRef .tc main_arg0) : (STab 128).Idx → EReal)
      (W3 m ρ c (Proc.devRef .tc main_arg2) : (⟨2, ![128, 128]⟩ : Shape).Idx → EReal)
      (W3 m ρ c (Proc.devRef .tc main_v15) : SNodeCol.Idx → EReal) = _
  rw [arg0_at3, arg2_at3, v15_at3]

theorem v15_at5 : W5 m ρ c (Proc.devRef .tc main_v15) = dcol (dinvK m ρ c) :=
  ((mid_pass (W4 m ρ c)).1).trans (v15_at4 m ρ c)
theorem v3_at5 : W5 m ρ c (Proc.devRef .tc main_v3) = srcK m ρ c :=
  ((mid_pass (W4 m ρ c)).2.1).trans (v3_at4 m ρ c)
theorem v6_at5 : W5 m ρ c (Proc.devRef .tc main_v6) = dstK m ρ c :=
  ((mid_pass (W4 m ρ c)).2.2.1).trans (v6_at4 m ρ c)
theorem arg4_at5 : W5 m ρ c (Proc.devRef .tc main_arg4) = m ((c.tc : Thread nD τ).loc main_arg4) :=
  ((mid_pass (W4 m ρ c)).2.2.2.1).trans (arg4_at4 m ρ c)
theorem arg5_at5 : W5 m ρ c (Proc.devRef .tc main_arg5) = m ((c.tc : Thread nD τ).loc main_arg5) :=
  ((mid_pass (W4 m ρ c)).2.2.2.2).trans (arg5_at4 m ρ c)
theorem v27_at5 : W5 m ρ c (Proc.devRef .tc main_v27)
    = shapeCast (SRow 128) (m ((c.tc : Thread nD τ).loc main_arg3) : (SVec 128).Idx → EReal) scBias := by
  refine (mid_bias (W4 m ρ c)).trans ?_
  rw [arg3_at4]
/-- The aggregation between the kernels, of the first kernel's output. -/
theorem v26_at5 : W5 m ρ c (Proc.devRef .tc main_v26)
    = aggPlain wfS128 wfR128 bzT128
        (scaledProduct (m ((c.tc : Thread nD τ).loc main_arg0) : (STab 128).Idx → EReal)
          (m ((c.tc : Thread nD τ).loc main_arg2) : (⟨2, ![128, 128]⟩ : Shape).Idx → EReal) (dcol (dinvK m ρ c)))
        (srcK m ρ c) (dstK m ρ c) := by
  refine (mid_agg (W4 m ρ c)).trans ?_
  rw [v16_at4, v3_at4, v6_at4]

/-- The second kernel's output: the scaled product of the hidden layer and the second weights. -/
theorem v28_at6 : W6 m ρ c (Proc.devRef .tc main_v28)
    = scaledProduct
        (hiddenPre (m ((c.tc : Thread nD τ).loc main_arg0) : (STab 128).Idx → EReal)
          (m ((c.tc : Thread nD τ).loc main_arg2) : (⟨2, ![128, 128]⟩ : Shape).Idx → EReal)
          (m ((c.tc : Thread nD τ).loc main_arg3) : (SVec 128).Idx → EReal) (dinvK m ρ c) (srcK m ρ c) (dstK m ρ c))
        (m ((c.tc : Thread nD τ).loc main_arg4) : (⟨2, ![128, 64]⟩ : Shape).Idx → EReal) (dcol (dinvK m ρ c)) := by
  refine ((W6_arr m ρ c 4).trans (final1 (V5 m ρ) c)).trans ?_
  show scaledProduct (reluRows (W5 m ρ c (Proc.devRef .tc main_v26) : (STab 128).Idx → EReal)
        (W5 m ρ c (Proc.devRef .tc main_v15) : SNodeCol.Idx → EReal)
        (W5 m ρ c (Proc.devRef .tc main_v27) : (SRow 128).Idx → EReal))
      (W5 m ρ c (Proc.devRef .tc main_arg4) : (⟨2, ![128, 64]⟩ : Shape).Idx → EReal)
      (W5 m ρ c (Proc.devRef .tc main_v15) : SNodeCol.Idx → EReal) = _
  rw [v26_at5, v15_at5, v27_at5, arg4_at5]
  rfl

/-- The weight column is an input of the second kernel too. -/
theorem v15_at6 : W6 m ρ c (Proc.devRef .tc main_v15) = dcol (dinvK m ρ c) :=
  ((W6_arr m ρ c 2).trans (((dat1 (V5 m ρ) c).arrAt_in 2 rfl _).trans (A_eq1 (V5 m ρ) c 2))).trans (v15_at5 m ρ c)
theorem v3_at6 : W6 m ρ c (Proc.devRef .tc main_v3) = srcK m ρ c :=
  (W6_of_ne m ρ c main_v3 (by decide)).trans (v3_at5 m ρ c)
theorem v6_at6 : W6 m ρ c (Proc.devRef .tc main_v6) = dstK m ρ c :=
  (W6_of_ne m ρ c main_v6 (by decide)).trans (v6_at5 m ρ c)
theorem arg5_at6 : W6 m ρ c (Proc.devRef .tc main_arg5) = m ((c.tc : Thread nD τ).loc main_arg5) :=
  (W6_of_ne m ρ c main_arg5 (by decide)).trans (arg5_at5 m ρ c)

/-- THE RESULT: `outPre` of the launch contents, the weight and the words. -/
theorem result_eq : W7 m ρ c (Proc.devRef .tc main_v43)
    = outPre (m ((c.tc : Thread nD τ).loc main_arg0) : (STab 128).Idx → EReal)
        (m ((c.tc : Thread nD τ).loc main_arg2) : (⟨2, ![128, 128]⟩ : Shape).Idx → EReal)
        (m ((c.tc : Thread nD τ).loc main_arg3) : (SVec 128).Idx → EReal)
        (m ((c.tc : Thread nD τ).loc main_arg4) : (⟨2, ![128, 64]⟩ : Shape).Idx → EReal)
        (m ((c.tc : Thread nD τ).loc main_arg5) : (SVec 64).Idx → EReal)
        (dinvK m ρ c) (srcK m ρ c) (dstK m ρ c) := by
  refine (tail_out (W6 m ρ c)).trans ?_
  rw [v15_at6, v28_at6, v3_at6, v6_at6, arg5_at6]
  rfl

end Read

end Cert.KernelIdeal.Whole

end
-- ==== Proof.Edges.lean ====
/-
  The edge list and the per-node weight, as functions of the `[2, 640000]` array of edge words.

  Row 0 of the array holds the edges' source words and row 1 their target words; each row is extended by the 40000
  self-loops `0, 1, …, 39999`, which gives 680000 source words and 680000 target words. The degree of a node is the
  number of target words that name it (a sum of ones added at the target rows, starting from zero), and the weight is
  `degree > 0 ? degree^(-1/2) : 0` — finite and nonnegative whatever the degree turns out to be.
-/
import proofs.«125249_j65481071395456_2_alg».proof.Proof.EdgeLayer

noncomputable section

namespace Cert.Gcn

open Idealize.ShloMosaic Idealize.ShloMosaic.ValueIdx

abbrev SWords : Shape := ⟨2, ![2, 640000]⟩
abbrev SWordRow : Shape := ⟨2, ![1, 640000]⟩
abbrev SGiven : Shape := ⟨1, ![640000]⟩

theorem slSrc : SWords.Slices (![0, 0] : Fin 2 → Nat) SWordRow := by decide
theorem slDst : SWords.Slices (![1, 0] : Fin 2 → Nat) SWordRow := by decide
theorem scGiven : SWordRow.ShapeCasts SGiven := by decide
theorem catLoops : Shape.Concatenates [SGiven, SNode] SEdge 0 := by decide
theorem bzN : S0.BroadcastsInDim SNode (![] : Fin 0 → Fin SNode.rank) := by decide
theorem wfDeg : ScatterDims.WF SNode SEdgeCol SEdge [] [0] [0] 1 := by decide

/-- The source words: row 0 of the edge array, then the self-loops. -/
def srcOf (x1 : IVec SWords 32) : IVec SEdge 32 :=
  concatenate SEdge 0 [⟨SGiven, shapeCast SGiven (extractStridedSlice SWordRow ![0, 0] x1 slSrc) scGiven⟩,
    ⟨SNode, iotaInDim SNode 32 0⟩] catLoops

/-- The target words: row 1 of the edge array, then the self-loops. -/
def dstOf (x1 : IVec SWords 32) : IVec SEdge 32 :=
  concatenate SEdge 0 [⟨SGiven, shapeCast SGiven (extractStridedSlice SWordRow ![1, 0] x1 slDst) scGiven⟩,
    ⟨SNode, iotaInDim SNode 32 0⟩] catLoops

/-- The degree: ones added at the target rows. -/
def degOf (x1 : IVec SWords 32) : SNode.Idx → EReal :=
  Host.scatterAdd (F := Ideal) (φ := .f32)
    ({ updateWindowDims := [], insertedWindowDims := [0], scatterDimsToOperandDims := [0], indexVectorDim := 1, wf := wfDeg } :
      ScatterDims SNode SEdgeCol SEdge)
    (broadcastInDim SNode ![] bzN (constant (F := Ideal) S0 .f32 0x00000000#32)) (colOf (dstOf x1))
    (broadcastInDim SEdge ![] bz (constant (F := Ideal) S0 .f32 0x3F800000#32))

/-- The weight: the guarded inverse square root of the degree. -/
def dinvOf (x1 : IVec SWords 32) : SNode.Idx → EReal :=
  select (cmpf (F := Ideal) (φ := .f32) .ogt (degOf x1) (broadcastInDim SNode ![] bzN (constant (F := Ideal) S0 .f32 0x00000000#32)))
    (Host.rsqrt (F := Ideal) (φ := .f32) (degOf x1))
    (broadcastInDim SNode ![] bzN (id (constant (F := Ideal) S0 .f32 0x00000000#32)))

/-- The weight is finite and nonnegative at every node. -/
theorem dinvOf_ok (x1 : IVec SWords 32) (p : SNode.Idx) : 0 ≤ dinvOf x1 p ∧ dinvOf x1 p ≠ ⊤ := by
  unfold dinvOf
  generalize degOf x1 = d
  show 0 ≤ Scalar.select (Ideal.cmp .ogt (d p) (Ideal.ofBits .f32 0x00000000#32)) (Ideal.rsqrt (d p)) (Ideal.ofBits .f32 0x00000000#32)
    ∧ Scalar.select (Ideal.cmp .ogt (d p) (Ideal.ofBits .f32 0x00000000#32)) (Ideal.rsqrt (d p)) (Ideal.ofBits .f32 0x00000000#32) ≠ ⊤
  rw [Ideal.ofBits_zero_f32]
  exact guarded_rsqrt (d p)

end Cert.Gcn

end
-- ==== Proof.KEdges.lean ====
/-
  The kernel program's first stretches read over any launch contents `U`: the source and target words it builds are
  `srcOf` and `dstOf` of the edge array, and the per-node weight its guard leaves is `dinvOf` of the edge array
  (Edges): the degree by adding ones at the target rows, its inverse square root, the comparison with zero, the choice.
-/
import proofs.«125249_j65481071395456_2_alg».proof.Proof.KStages
import proofs.«125249_j65481071395456_2_alg».proof.Proof.Edges

noncomputable section

open Idealize.ShloMosaic Idealize.ShloMosaic.TcCoe Idealize.SL.Sem Idealize.ShloMosaic.ValueIdx
open Idealize.ShloMosaic.StableHlo

namespace Cert.KernelIdeal.Whole

open Cert.KernelIdeal Cert.KernelIdeal.Gen Cert.Gcn

variable (U : Valuation τ sig (Elt Ideal))

set_option maxHeartbeats 4000000 in
theorem head_src : StableHlo.after (hostOps0 (F := Ideal)) U (Proc.devRef .tc main_v3)
    = srcOf (U (Proc.devRef .tc main_arg1) : IVec SWords 32) := by
  after_results_simp
  rfl

set_option maxHeartbeats 4000000 in
theorem head_dst : StableHlo.after (hostOps0 (F := Ideal)) U (Proc.devRef .tc main_v6)
    = dstOf (U (Proc.devRef .tc main_arg1) : IVec SWords 32) := by
  after_results_simp
  rfl

set_option maxHeartbeats 4000000 in
/-- The comparison `degree > 0`. -/
theorem head_pos : StableHlo.after (hostOps0 (F := Ideal)) U (Proc.devRef .tc main_v12)
    = cmpf (F := Ideal) (φ := .f32) .ogt (degOf (U (Proc.devRef .tc main_arg1) : IVec SWords 32))
        (broadcastInDim SNode ![] bzN (constant (F := Ideal) S0 .f32 0x00000000#32)) := by
  after_results_simp
  rfl

set_option maxHeartbeats 4000000 in
/-- The inverse square root of the degree. -/
theorem head_rsqrt : StableHlo.after (hostOps0 (F := Ideal)) U (Proc.devRef .tc main_v13)
    = Host.rsqrt (F := Ideal) (φ := .f32) (degOf (U (Proc.devRef .tc main_arg1) : IVec SWords 32)) := by
  after_results_simp
  rfl

set_option maxHeartbeats 4000000 in
/-- The zero the guard falls back on. -/
theorem head_zero : StableHlo.after (hostOps0 (F := Ideal)) U (Proc.devRef .tc main_cst_2)
    = constant (F := Ideal) S0 .f32 0x00000000#32 := by
  after_results_simp

/-- The guard's choice. -/
theorem guard_choice : StableHlo.after (hostOps0_1 (F := Ideal)) U (Proc.devRef .tc main_v14)
    = select (U (Proc.devRef .tc main_v12) : IVec SNode 1) (U (Proc.devRef .tc main_v13) : SNode.Idx → EReal)
        (broadcastInDim SNode ![] bzN (id (U (Proc.devRef .tc main_cst_2) : S0.Idx → EReal))) := by
  after_results_simp
  rfl

end Cert.KernelIdeal.Whole

end
-- ==== Proof.KWords.lean ====
/-
  The words and the weight the kernel program works with are those of the edge array it was launched with:
  `srcOf`, `dstOf` and `dinvOf` of that array (Edges), the first stretches read from the launch contents.
-/
import proofs.«125249_j65481071395456_2_alg».proof.Proof.KRun
import proofs.«125249_j65481071395456_2_alg».proof.Proof.KEdges

noncomputable section

open Idealize.ShloMosaic Idealize.ShloMosaic.TcCoe Idealize.SL.Sem Idealize.ShloMosaic.ValueIdx

namespace Cert.KernelIdeal.Whole

open Cert.KernelIdeal Cert.KernelIdeal.Gen Cert.Gcn

variable (m : (ℓ : Loc nD τ sig) → Buf (Elt Ideal) ℓ) (ρ : Dev nD → PrngReg) (c : Dev nD)

theorem srcK_eq : srcK m ρ c = srcOf (m ((c.tc : Thread nD τ).loc main_arg1) : IVec SWords 32) :=
  head_src (W0 m ρ c)

theorem dstK_eq : dstK m ρ c = dstOf (m ((c.tc : Thread nD τ).loc main_arg1) : IVec SWords 32) :=
  head_dst (W0 m ρ c)

theorem dinvK_eq : dinvK m ρ c = dinvOf (m ((c.tc : Thread nD τ).loc main_arg1) : IVec SWords 32) := by
  refine (guard_choice (W1 m ρ c)).trans ?_
  have e12 : (W1 m ρ c (Proc.devRef .tc main_v12) : IVec SNode 1)
      = cmpf (F := Ideal) (φ := .f32) .ogt (degOf (m ((c.tc : Thread nD τ).loc main_arg1) : IVec SWords 32))
          (broadcastInDim SNode ![] bzN (constant (F := Ideal) S0 .f32 0x00000000#32)) := head_pos (W0 m ρ c)
  have e13 : (W1 m ρ c (Proc.devRef .tc main_v13) : SNode.Idx → EReal)
      = Host.rsqrt (F := Ideal) (φ := .f32) (degOf (m ((c.tc : Thread nD τ).loc main_arg1) : IVec SWords 32)) :=
    head_rsqrt (W0 m ρ c)
  have ec : (W1 m ρ c (Proc.devRef .tc main_cst_2) : S0.Idx → EReal) = constant (F := Ideal) S0 .f32 0x00000000#32 :=
    head_zero (W0 m ρ c)
  rw [e12, e13, ec]
  rfl

end Cert.KernelIdeal.Whole

end
-- ==== Proof.RefValue.lean ====
/-
  The reference program's result as one function of the launch contents: `outMsg` (Bridge) of the five float
  arguments and of the weight and the words computed from the edge array (Edges). The program computes the words, the
  degree and the weight twice, once per layer, by the same operations on the same array; both copies are the same terms.
-/
import proofs.«125249_j65481071395456_2_alg».proof.Proof.RefRun
import proofs.«125249_j65481071395456_2_alg».proof.Proof.Bridge
import proofs.«125249_j65481071395456_2_alg».proof.Proof.Edges

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.Gcn

theorem res_eq (m : (ℓ : Loc nD τ sig) → Buf (Elt Ideal) ℓ) (c : Dev nD) :
    Cert.ReferenceIdeal.ValueP.res_main_v94 (F := Ideal) m c
      = outMsg (m ((c.tc : Thread nD τ).loc main_arg0) : (STab 128).Idx → EReal)
          (m ((c.tc : Thread nD τ).loc main_arg2) : (⟨2, ![128, 128]⟩ : Shape).Idx → EReal)
          (m ((c.tc : Thread nD τ).loc main_arg3) : (SVec 128).Idx → EReal)
          (m ((c.tc : Thread nD τ).loc main_arg4) : (⟨2, ![128, 64]⟩ : Shape).Idx → EReal)
          (m ((c.tc : Thread nD τ).loc main_arg5) : (SVec 64).Idx → EReal)
          (dinvOf (m ((c.tc : Thread nD τ).loc main_arg1) : IVec SWords 32))
          (srcOf (m ((c.tc : Thread nD τ).loc main_arg1) : IVec SWords 32))
          (dstOf (m ((c.tc : Thread nD τ).loc main_arg1) : IVec SWords 32)) := by
  unfold Cert.ReferenceIdeal.ValueP.res_main_v94
  rfl

end Cert.ReferenceIdeal.RefValue

end
-- ==== Proof.lean ====
/-
  A two-layer graph convolution over 40000 nodes and 680000 edges (640000 given, 40000 self-loops), computed two ways.

  Both programs form, from the `[2, 640000]` array of edge words, the source and target words of the edges, the degree of
  every node and the weight `d = degree > 0 ? degree^(-1/2) : 0`. A layer with table `T` (the features times the layer's
  weights) and bias `b` is `out[p, q] = Σ_{edges r into p} T[s r, q] · d[s r] · d[p] + b[q]`.

  The reference scales every message: it gathers the rows `T[s r, ·]`, multiplies each by `d[s r] · d[t r]` (`t r` the
  edge's target row), and adds the messages into the target rows. The kernel program scales ROWS instead: a first kernel
  writes `(x · W1)[i, ·] · d[i]` block of rows by block of rows; the host adds the gathered rows into the target rows;
  a second kernel forms `h = max(agg · d + b1, 0)` and writes `(h · W2)[i, ·] · d[i]`; the host aggregates again and
  finishes with `d · agg + b2`. The two agree on the extended reals because an edge that is added into row `p` has
  target word `p` itself (in range, so the gather's wrap and clamp leave it alone), which makes `d[p]` a common
  factor of that row's sum, and a finite nonnegative factor distributes over any sum of extended reals (the weight is
  finite and nonnegative whatever the degree). Rounding matmul operands to bf16 is the identity on extended reals, and
  a product computed 5000 rows at a time is the product computed at once.

  The modules: EdgeLayer (the law for one aggregation), Arrays and Bridge (the two programs as whole-array functions and
  their equality), Edges (words, degree, weight), KBlocks0 / KBlocks1 (each kernel's output array after its last grid
  point), KStages / KEdges / KRun / KWords (the kernel program's run and its result read back to the launch contents),
  RefRun / RefValue (the reference's run and its result), and the Lib files (gathers, the scatter, products, broadcasts).
-/
import proofs.«125249_j65481071395456_2_alg».proof.Defs
import proofs.«125249_j65481071395456_2_alg».proof.Proof.Gen.Kernel
import proofs.«125249_j65481071395456_2_alg».proof.Proof.Gen.Kernel.Skeleton
import proofs.«125249_j65481071395456_2_alg».proof.Proof.Gen.Kernel.Launch
import proofs.«125249_j65481071395456_2_alg».proof.Proof.Gen.Kernel.Points
import proofs.«125249_j65481071395456_2_alg».proof.Proof.Gen.Kernel.Frame
import proofs.«125249_j65481071395456_2_alg».proof.Proof.Gen.KernelIdeal
import proofs.«125249_j65481071395456_2_alg».proof.Proof.Gen.KernelIdeal.Skeleton
import proofs.«125249_j65481071395456_2_alg».proof.Proof.Gen.KernelIdeal.Launch
import proofs.«125249_j65481071395456_2_alg».proof.Proof.Gen.KernelIdeal.Points
import proofs.«125249_j65481071395456_2_alg».proof.Proof.Gen.KernelIdeal.Frame
import proofs.«125249_j65481071395456_2_alg».proof.Proof.Gen.ReferenceIdeal
import proofs.«125249_j65481071395456_2_alg».proof.Proof.Gen.Pre_finite_inputs
import proofs.«125249_j65481071395456_2_alg».proof.Proof.KWords
import proofs.«125249_j65481071395456_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments both programs end, the kernel program's result the row-scaling form and
    the reference's the message-scaling form of one function of the arguments. -/
theorem algebraic : Cert.algebraic_KernelIdeal_ReferenceIdeal := by
  intro m ρ m' ρ' _ hagree
  refine ⟨fun c => Cert.KernelIdeal.Gen.W7 m ρ c (Proc.devRef .tc Cert.KernelIdeal.main_v43),
    Cert.KernelIdeal.Whole.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5⟩ := hagree c
  refine (Cert.ReferenceIdeal.RefValue.res_eq m' c).trans ?_
  refine Eq.trans ?_ (Cert.KernelIdeal.Whole.result_eq m ρ c).symm
  rw [Cert.KernelIdeal.Whole.srcK_eq m ρ c, Cert.KernelIdeal.Whole.dstK_eq m ρ c, Cert.KernelIdeal.Whole.dinvK_eq m ρ c,
    h0, h1, h2, h3, h4, h5]
  exact (Cert.Gcn.out_eq _ _ _ _ _ _ _ _ (Cert.Gcn.dinvOf_ok _)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
